-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x2048 : Shape := ⟨2, ![4, 2048]⟩
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : IVec S4x2048 32) (main_arg1 : FVec F S2048x2048 .f32) : IVec S_ 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_c_0 : IVec S_ 32 := constantI S_ 32 0#32
  let main_v4 : IVec S4x2048 32 := broadcastInDim S4x2048 ![] bcast_S_S4x2048 main_c_0
  let main_v5 : IVec S4x2048 1 := cmpi .sge main_arg0 main_v4
  let main_c_1 : IVec S_ 32 := constantI S_ 32 2047#32
  let main_v6 : IVec S4x2048 32 := broadcastInDim S4x2048 ![] bcast_S_S4x2048 main_c_1
  let main_v7 : IVec S4x2048 1 := cmpi .sle main_arg0 main_v6
  let main_v8 : IVec S4x2048 1 := andi main_v5 main_v7
  let main_c_2 : IVec S_ 1 := constantI S_ 1 1#1
  let main_v9 : IVec S_ 1 := (fun x v => Host.reduce IntOp.andi x v reducesTo_S4x2048_S_d0_1 h_S_) main_v8 main_c_2
  let main_v10 : IVec S_ 1 := andi main_v3 main_v9
  main_v10
-- ==== Kernel.lean ====
abbrev S4x2048 : Shape := ⟨2, ![4, 2048]⟩
abbrev S2048x2048 : Shape := ⟨2, ![2048, 2048]⟩
abbrev S4x2048x2048 : Shape := ⟨3, ![4, 2048, 2048]⟩
abbrev S2x16x2048 : Shape := ⟨3, ![2, 16, 2048]⟩
abbrev S2 : Shape := ⟨1, ![2]⟩
abbrev S1x16x2048 : Shape := ⟨3, ![1, 16, 2048]⟩
abbrev S16x2048 : Shape := ⟨2, ![16, 2048]⟩
abbrev S1 : Shape := ⟨1, ![1]⟩
abbrev S_ : Shape := ⟨0, ![]⟩

abbrev nBuf : Table → Nat
  | .hbm => 3
  | .local .scVector .vmem => 1
  | _ => 0

abbrev bufTy : (tb : Table) → Fin (nBuf tb) → BufTy
  | .hbm, ⟨0, _⟩ => ⟨S4x2048, .i32⟩
  | .hbm, ⟨1, _⟩ => ⟨S2048x2048, .f32⟩
  | .hbm, ⟨2, _⟩ => ⟨S4x2048x2048, .f32⟩
  | .local .scVector .vmem, ⟨0, _⟩ => ⟨S2x16x2048, .f32⟩
  | _, _ => ⟨S4x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_4 : BitVec 32 := 0#32
  ![v3.toNat, 0]
def k0_off2 (i : grid0.Coords) (c0_i32_24 : BitVec 32) : Fin 3 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v30 : BitVec 32 := Scalar.addi v2 c0_i32_24
  let c0_i32_30 : BitVec 32 := 0#32
  ![0, v30.toNat, 0]
def k0_off3 (i : grid0.Coords) (c0_i32_34 : BitVec 32) : Fin 3 → Nat :=
  let c1_i32_36 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v41 : BitVec 32 := Scalar.addi v2 c0_i32_34
  let c0_i32_40 : BitVec 32 := 0#32
  ![1, v41.toNat, 0]
def k0_off4 (i : grid0.Coords) (c0_i32_44 : BitVec 32) : Fin 3 → Nat :=
  let c2_i32_46 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v52 : BitVec 32 := Scalar.addi v2 c0_i32_44
  let c0_i32_50 : BitVec 32 := 0#32
  ![2, v52.toNat, 0]
def k0_off5 (i : grid0.Coords) (c0_i32_54 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v63 : BitVec 32 := Scalar.addi v2 c0_i32_54
  let c0_i32_59 : BitVec 32 := 0#32
  ![3, v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x16x2048_S1x16x2048_0_0_0 : ∀ a, (![0, 0, 0] : Fin 3 → Nat) a + S1x16x2048.size a ≤ S2x16x2048.size a
  squeezes_S1x16x2048_S16x2048 : S1x16x2048.Squeezes S16x2048
  inb_S2_S1_0 : ∀ a, (![0] : Fin 1 → Nat) a + S1.size a ≤ S2.size a
  squeezes_S1_S_ : S1.Squeezes S_
  inb_S2x16x2048_S1x16x2048_1_0_0 : ∀ a, (![1, 0, 0] : Fin 3 → Nat) a + S1x16x2048.size a ≤ S2x16x2048.size a
  inb_S2_S1_1 : ∀ a, (![1] : Fin 1 → Nat) a + S1.size a ≤ S2.size a
  hcc0_scratch1 : 0 + S2.numel ≤ 4
  hcc0_scratch2 : 2 + S2.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (16 * r.val))) a + S16x2048.size a ≤ S2048x2048.size a
  k0_off2_inb : ∀ i : grid0.Coords, ∀ (r : Fin 4), ∀ a, (k0_off2 i (BitVec.ofNat 32 (16 * r.val))) a + S1x16x2048.size a ≤ S4x2048x2048.size a
  k0_off3_inb : ∀ i : grid0.Coords, ∀ (r : Fin 4), ∀ a, (k0_off3 i (BitVec.ofNat 32 (16 * r.val))) a + S1x16x2048.size a ≤ S4x2048x2048.size a
  k0_off4_inb : ∀ i : grid0.Coords, ∀ (r : Fin 4), ∀ a, (k0_off4 i (BitVec.ofNat 32 (16 * r.val))) a + S1x16x2048.size a ≤ S4x2048x2048.size a
  k0_off5_inb : ∀ i : grid0.Coords, ∀ (r : Fin 4), ∀ a, (k0_off5 i (BitVec.ofNat 32 (16 * r.val))) a + S1x16x2048.size a ≤ S4x2048x2048.size a

variable [Facts₀]

abbrev cc0_scratch1 : DmaSems sig S2 := SemArray.consecutive 0 S2 hcc0_scratch1
abbrev cc0_scratch2 : DmaSems sig S2 := SemArray.consecutive 2 S2 hcc0_scratch2

class Facts : Prop extends Facts₀ where

variable [Facts]
-- ==== ReferenceIdeal.lean ====
abbrev S4x2048 : Shape := ⟨2, ![4, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x2048 : Shape := ⟨3, ![1, 2048, 2048]⟩
abbrev S4x2048x2048 : Shape := ⟨3, ![4, 2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S2048x2048, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x2048, .f32⟩
  | .hbm, ⟨22, _⟩ => ⟨S2048x2048, .i1⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S1x2048x2048, .f32⟩
  | .hbm, ⟨27, _⟩ => ⟨S4x2048x2048, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x2048_0 : S2048.BroadcastsInDim S2048x2048 (![0] : Fin 1 → Fin S2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  gather_S2048x2048_S2048x1_S2048x2048_1_0_n_n_0_1_12048_wf : GatherDims.WF S2048x2048 S2048x1 S2048x2048 [1] [0] [] [0] [] 1 ![1, 2048]

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf

class Facts : Prop extends Facts₀ where

variable [Facts]
-- ==== Proof.SetupBits.lean ====
/-
  The names the proofs about the kernel program share: the launch configuration, the ghost state (the launch
  handshakes' rounds beside the transfers' counters), the three arrays and the scratch as a vector subcore addresses
  them, and the pieces a subcore moves — chunk r of its 64 table rows (16 rows), the same rows of each batch entry of
  the result, the two 16-row slots of its scratch, and its four DMA semaphores (one per slot for the copies in, one per
  slot for the copies out).
-/
import proofs.«207500_g41051297415787_cont_8to1_b_1522_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207500_g41051297415787_cont_8to1_b_1522_22_alg».proof.Proof.Gen.Kernel
import proofs.«207500_g41051297415787_cont_8to1_b_1522_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev tblW : Memref sig .scVector .hbm S2048x2048 .f32 := Memref.whole main_arg1_scv
abbrev outW : Memref sig .scVector .hbm S4x2048x2048 .f32 := Memref.whole main_v0_scv
abbrev bufW : Memref sig .scVector .vmem S2x16x2048 .f32 := Memref.whole cc0_scratch0

abbrev tblAt (L : grid0.Coords) (w : BitVec 32) (h : ∀ a, (k0_off1 L w) a + S16x2048.size a ≤ S2048x2048.size a) : Memref sig .scVector .hbm S16x2048 .f32 :=
  tblW.slice (Rect.unit (s := S2048x2048) (k0_off1 L w) S16x2048.size h) (fun _ => rfl)
abbrev outAt2 (L : grid0.Coords) (w : BitVec 32) (h : ∀ a, (k0_off2 L w) a + S1x16x2048.size a ≤ S4x2048x2048.size a) : Memref sig .scVector .hbm S16x2048 .f32 :=
  (outW.slice (Rect.unit (s := S4x2048x2048) (k0_off2 L w) S1x16x2048.size h) (fun _ => rfl)).squeeze S16x2048 squeezes_S1x16x2048_S16x2048
abbrev outAt3 (L : grid0.Coords) (w : BitVec 32) (h : ∀ a, (k0_off3 L w) a + S1x16x2048.size a ≤ S4x2048x2048.size a) : Memref sig .scVector .hbm S16x2048 .f32 :=
  (outW.slice (Rect.unit (s := S4x2048x2048) (k0_off3 L w) S1x16x2048.size h) (fun _ => rfl)).squeeze S16x2048 squeezes_S1x16x2048_S16x2048
abbrev outAt4 (L : grid0.Coords) (w : BitVec 32) (h : ∀ a, (k0_off4 L w) a + S1x16x2048.size a ≤ S4x2048x2048.size a) : Memref sig .scVector .hbm S16x2048 .f32 :=
  (outW.slice (Rect.unit (s := S4x2048x2048) (k0_off4 L w) S1x16x2048.size h) (fun _ => rfl)).squeeze S16x2048 squeezes_S1x16x2048_S16x2048
abbrev outAt5 (L : grid0.Coords) (w : BitVec 32) (h : ∀ a, (k0_off5 L w) a + S1x16x2048.size a ≤ S4x2048x2048.size a) : Memref sig .scVector .hbm S16x2048 .f32 :=
  (outW.slice (Rect.unit (s := S4x2048x2048) (k0_off5 L w) S1x16x2048.size h) (fun _ => rfl)).squeeze S16x2048 squeezes_S1x16x2048_S16x2048

abbrev slot0 : Memref sig .scVector .vmem S16x2048 .f32 :=
  (bufW.slice (Rect.unit (s := S2x16x2048) ![0, 0, 0] S1x16x2048.size inb_S2x16x2048_S1x16x2048_0_0_0) (fun _ => rfl)).squeeze S16x2048 squeezes_S1x16x2048_S16x2048
abbrev slot1 : Memref sig .scVector .vmem S16x2048 .f32 :=
  (bufW.slice (Rect.unit (s := S2x16x2048) ![1, 0, 0] S1x16x2048.size inb_S2x16x2048_S1x16x2048_1_0_0) (fun _ => rfl)).squeeze S16x2048 squeezes_S1x16x2048_S16x2048

abbrev semIn0 : DmaSem sig := ((cc0_scratch1.slice (Rect.unit (s := S2) ![0] S1.size inb_S2_S1_0)).squeeze S_ squeezes_S1_S_).sem
abbrev semIn1 : DmaSem sig := ((cc0_scratch1.slice (Rect.unit (s := S2) ![1] S1.size inb_S2_S1_1)).squeeze S_ squeezes_S1_S_).sem
abbrev semOut0 : DmaSem sig := ((cc0_scratch2.slice (Rect.unit (s := S2) ![0] S1.size inb_S2_S1_0)).squeeze S_ squeezes_S1_S_).sem
abbrev semOut1 : DmaSem sig := ((cc0_scratch2.slice (Rect.unit (s := S2) ![1] S1.size inb_S2_S1_1)).squeeze S_ squeezes_S1_S_).sem

/-- A memref's own elements held at the full share by a vector subcore. -/
abbrev mine {sp : Space} {s : Shape} (d : Dev nD) (c : Fin τ.nSC) (j : Fin τ.nSub) (M : Memref sig .scVector sp s .f32) (f : Buf (Elt F) (M.view.loc (V d c j))) : sProp 𝕄 :=
  M.view.loc (V d c j) ↦[M.view.set]{fullShare} f

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.KB

end
-- ==== Proof.Chunks.lean ====
/-
  The row chunks the kernel moves. The 2048 rows are cut into 128 chunks of 16 rows; chunk number 8·j + 4·c + r belongs
  to subcore j of core c, as its r-th chunk (its rows start at 128·j + 64·c + 16·r). In the table a chunk is a 16 × 2048
  rectangle; in the result it is that rectangle once per batch entry b. These rectangles are pairwise disjoint and
  cover their arrays.
-/
import Idealize.ShloMosaic.Shape
import Idealize.ShloMosaic.Lib.ValueIdx

namespace Cert.Proof.Chunks

open Idealize.ShloMosaic

abbrev ST : Shape := ⟨2, ![2048, 2048]⟩
abbrev SO : Shape := ⟨3, ![4, 2048, 2048]⟩

/-- The first row of chunk (c, j, r). -/
def row0 (c : Fin 2) (j : Fin 16) (r : Fin 4) : Nat := 128 * j.val + 64 * c.val + 16 * r.val

theorem row0_le (c : Fin 2) (j : Fin 16) (r : Fin 4) : row0 c j r + 16 ≤ 2048 := by
  unfold row0; omega

theorem tInb (c : Fin 2) (j : Fin 16) (r : Fin 4) : ∀ a, (![row0 c j r, 0] : Fin 2 → Nat) a + (![16, 2048] : Fin 2 → Nat) a ≤ ST.size a := by
  have := row0_le c j r
  intro a; match a with
  | ⟨0, _⟩ => exact this
  | ⟨1, _⟩ => exact Nat.le_refl _

theorem oInb (b : Fin 4) (c : Fin 2) (j : Fin 16) (r : Fin 4) :
    ∀ a, (![b.val, row0 c j r, 0] : Fin 3 → Nat) a + (![1, 16, 2048] : Fin 3 → Nat) a ≤ SO.size a := by
  have := row0_le c j r
  have := b.isLt
  intro a; match a with
  | ⟨0, _⟩ => show b.val + 1 ≤ 4; omega
  | ⟨1, _⟩ => exact row0_le c j r
  | ⟨2, _⟩ => exact Nat.le_refl _

/-- Chunk (c, j, r) of the table. -/
def tRect (c : Fin 2) (j : Fin 16) (r : Fin 4) : Rect ST := Rect.unit ![row0 c j r, 0] ![16, 2048] (tInb c j r)
/-- Chunk (c, j, r) of batch entry b of the result. -/
def oRect (b : Fin 4) (c : Fin 2) (j : Fin 16) (r : Fin 4) : Rect SO := Rect.unit ![b.val, row0 c j r, 0] ![1, 16, 2048] (oInb b c j r)

def tSet (x : Fin 2 × Fin 16 × Fin 4) : Finset ST.Idx := (tRect x.1 x.2.1 x.2.2).set
def oSet (x : Fin 4 × Fin 2 × Fin 16 × Fin 4) : Finset SO.Idx := (oRect x.1 x.2.1 x.2.2.1 x.2.2.2).set

theorem mem_tSet {x : Fin 2 × Fin 16 × Fin 4} {i : ST.Idx} :
    i ∈ tSet x ↔ row0 x.1 x.2.1 x.2.2 ≤ (i 0).val ∧ (i 0).val < row0 x.1 x.2.1 x.2.2 + 16 := by
  unfold tSet tRect
  rw [Rect.mem_set_unit]
  constructor
  · intro h; exact h 0
  · intro h a; match a with
    | ⟨0, _⟩ => exact h
    | ⟨1, _⟩ => exact ⟨Nat.zero_le _, by have h1 : (i 1).val < 2048 := (i 1).isLt; show (i 1).val < 0 + 2048; omega⟩

theorem mem_oSet {x : Fin 4 × Fin 2 × Fin 16 × Fin 4} {i : SO.Idx} :
    i ∈ oSet x ↔ (i 0).val = x.1.val ∧ row0 x.2.1 x.2.2.1 x.2.2.2 ≤ (i 1).val ∧ (i 1).val < row0 x.2.1 x.2.2.1 x.2.2.2 + 16 := by
  unfold oSet oRect
  rw [Rect.mem_set_unit]
  constructor
  · intro h
    have h0 := h 0; have h1 := h 1
    refine ⟨?_, h1⟩
    have : x.1.val ≤ (i 0).val ∧ (i 0).val < x.1.val + 1 := h0
    omega
  · intro h a; match a with
    | ⟨0, _⟩ => show x.1.val ≤ (i 0).val ∧ (i 0).val < x.1.val + 1; omega
    | ⟨1, _⟩ => exact h.2
    | ⟨2, _⟩ => exact ⟨Nat.zero_le _, by have h2 : (i 2).val < 2048 := (i 2).isLt; show (i 2).val < 0 + 2048; omega⟩

theorem row0_sep {c c' : Fin 2} {j j' : Fin 16} {r r' : Fin 4} (h : ¬ (c = c' ∧ j = j' ∧ r = r')) :
    row0 c j r + 16 ≤ row0 c' j' r' ∨ row0 c' j' r' + 16 ≤ row0 c j r := by
  unfold row0
  have hc := c.isLt; have hc' := c'.isLt; have hr := r.isLt; have hr' := r'.isLt
  have : ¬ (c.val = c'.val ∧ j.val = j'.val ∧ r.val = r'.val) := fun ⟨a, b, e⟩ => h ⟨Fin.ext a, Fin.ext b, Fin.ext e⟩
  omega

theorem tSet_disjoint : ∀ x ∈ (Finset.univ : Finset (Fin 2 × Fin 16 × Fin 4)), ∀ y ∈ (Finset.univ : Finset (Fin 2 × Fin 16 × Fin 4)),
    x ≠ y → Disjoint (tSet x) (tSet y) := by
  intro x _ y _ hxy
  refine Finset.disjoint_left.mpr fun i hx hy => ?_
  rw [mem_tSet] at hx hy
  have := row0_sep (c := x.1) (c' := y.1) (j := x.2.1) (j' := y.2.1) (r := x.2.2) (r' := y.2.2)
    (fun ⟨a, b, e⟩ => hxy (Prod.ext a (Prod.ext b e)))
  omega

theorem oSet_disjoint : ∀ x ∈ (Finset.univ : Finset (Fin 4 × Fin 2 × Fin 16 × Fin 4)), ∀ y ∈ (Finset.univ : Finset (Fin 4 × Fin 2 × Fin 16 × Fin 4)),
    x ≠ y → Disjoint (oSet x) (oSet y) := by
  intro x _ y _ hxy
  refine Finset.disjoint_left.mpr fun i hx hy => ?_
  rw [mem_oSet] at hx hy
  by_cases hb : x.1 = y.1
  · have := row0_sep (c := x.2.1) (c' := y.2.1) (j := x.2.2.1) (j' := y.2.2.1) (r := x.2.2.2) (r' := y.2.2.2)
      (fun ⟨a, b, e⟩ => hxy (Prod.ext hb (Prod.ext a (Prod.ext b e))))
    omega
  · have : x.1.val ≠ y.1.val := fun e => hb (Fin.ext e)
    omega

/-- The chunk that holds row n. -/
theorem row_chunk (n : Nat) (hn : n < 2048) : ∃ (c : Fin 2) (j : Fin 16) (r : Fin 4), row0 c j r ≤ n ∧ n < row0 c j r + 16 :=
  ⟨⟨(n % 128) / 64, by omega⟩, ⟨n / 128, by omega⟩, ⟨(n % 64) / 16, by omega⟩, by unfold row0; dsimp only; omega, by unfold row0; dsimp only; omega⟩

theorem tSet_cover : (Finset.univ : Finset (Fin 2 × Fin 16 × Fin 4)).biUnion tSet = Finset.univ := by
  ext i
  simp only [Finset.mem_biUnion, Finset.mem_univ, true_and, iff_true]
  obtain ⟨c, j, r, h⟩ := row_chunk (i 0).val (i 0).isLt
  exact ⟨(c, j, r), mem_tSet.mpr h⟩

theorem oSet_cover : (Finset.univ : Finset (Fin 4 × Fin 2 × Fin 16 × Fin 4)).biUnion oSet = Finset.univ := by
  ext i
  simp only [Finset.mem_biUnion, Finset.mem_univ, true_and, iff_true]
  obtain ⟨c, j, r, h⟩ := row_chunk (i 1).val (i 1).isLt
  exact ⟨(⟨(i 0).val, (i 0).isLt⟩, c, j, r), mem_oSet.mpr ⟨rfl, h⟩⟩

/-- The result pieces listed core first, then subcore, chunk and batch entry: the order they are dealt in. -/
def oSetN (y : Fin 2 × Fin 16 × Fin 4 × Fin 4) : Finset SO.Idx := oSet (y.2.2.2, y.1, y.2.1, y.2.2.1)

theorem oSetN_disjoint : ∀ x ∈ (Finset.univ : Finset (Fin 2 × Fin 16 × Fin 4 × Fin 4)), ∀ y ∈ (Finset.univ : Finset (Fin 2 × Fin 16 × Fin 4 × Fin 4)),
    x ≠ y → Disjoint (oSetN x) (oSetN y) := by
  intro x _ y _ hxy
  refine oSet_disjoint _ (Finset.mem_univ _) _ (Finset.mem_univ _) fun e => hxy ?_
  have e1 := congrArg Prod.fst e
  have e2 := congrArg (fun z => z.2.1) e
  have e3 := congrArg (fun z => z.2.2.1) e
  have e4 := congrArg (fun z => z.2.2.2) e
  exact Prod.ext e2 (Prod.ext e3 (Prod.ext e4 e1))

theorem oSetN_cover : (Finset.univ : Finset (Fin 2 × Fin 16 × Fin 4 × Fin 4)).biUnion oSetN = Finset.univ := by
  ext i
  simp only [Finset.mem_biUnion, Finset.mem_univ, true_and, iff_true]
  have hi := Finset.mem_univ i
  rw [← oSet_cover] at hi
  obtain ⟨x, -, hx⟩ := Finset.mem_biUnion.mp hi
  exact ⟨(x.2.1, x.2.2.1, x.2.2.2, x.1), hx⟩

/-- Every table element lies in some chunk; every result element in some piece. -/
theorem tSet_covers (i : ST.Idx) : ∃ x : Fin 2 × Fin 16 × Fin 4, i ∈ tSet x := by
  obtain ⟨c, j, r, h⟩ := row_chunk (i 0).val (i 0).isLt
  exact ⟨(c, j, r), mem_tSet.mpr h⟩

theorem oSetN_covers (i : SO.Idx) : ∃ y : Fin 2 × Fin 16 × Fin 4 × Fin 4, i ∈ oSetN y := by
  obtain ⟨c, j, r, h⟩ := row_chunk (i 1).val (i 1).isLt
  exact ⟨(c, j, r, ⟨(i 0).val, (i 0).isLt⟩), mem_oSet.mpr ⟨rfl, h⟩⟩

end Cert.Proof.Chunks
-- ==== Proof.Spec.lean ====
/-
  What both programs compute, as one function of the table: the result array of extents 4 × 2048 × 2048 holds the
  table of extents 2048 × 2048 once per batch entry, out (b, n, d) = table (n, d). The index array takes no part.
-/
import Idealize.ShloMosaic.Lib.ValueIdx

namespace Cert.Proof.Spec

open Idealize.ShloMosaic Idealize.ShloMosaic.ValueIdx

/-- The table repeated along a new leading axis of extent 4. -/
def repeated {X : Type} (tbl : (⟨2, ![2048, 2048]⟩ : Shape).Idx → X) : (⟨3, ![4, 2048, 2048]⟩ : Shape).Idx → X :=
  fun i => tbl (ix2 (i 1) (i 2))

theorem repeated_apply {X : Type} (tbl : (⟨2, ![2048, 2048]⟩ : Shape).Idx → X) (i : (⟨3, ![4, 2048, 2048]⟩ : Shape).Idx) :
    repeated tbl i = tbl (ix2 (i 1) (i 2)) := rfl

end Cert.Proof.Spec
-- ==== Proof.LandBits.lean ====
/-
  What a copy out lands, and where the pieces lie. Chunk r of subcore (c, j) is rows 128·j + 64·c + 16·r … + 15: the
  table piece a copy in reads is the 16 × 2048 rectangle at those rows, and the result piece a copy out writes for batch
  entry b is that rectangle in plane b. A copy out that carries what the table holds on the chunk leaves, on its result
  piece, out (b, n, d) = table (n, d). The scratch is its two slots.
-/
import proofs.«207500_g41051297415787_cont_8to1_b_1522_22_alg».proof.Proof.SetupBits
import proofs.«207500_g41051297415787_cont_8to1_b_1522_22_alg».proof.Proof.Chunks
import proofs.«207500_g41051297415787_cont_8to1_b_1522_22_alg».proof.Proof.Spec
import Idealize.ShloMosaic.Lib.Writes
import Idealize.ShloMosaic.Lib.ValueLayout
import Idealize.ShloMosaic.Lib.Exec.Geometry

noncomputable section

namespace Cert.Proof.KB

open Cert.Kernel Cert.Kernel.Gen
open Cert.Proof.Chunks
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A subcore's grid coordinates as the chunk coordinates (core, subcore). -/
abbrev cOf (L : grid0.Coords) : Fin 2 := L 0
abbrev jOf (L : grid0.Coords) : Fin 16 := L 1

/-- The offset word of chunk r. -/
abbrev wOf (r : Fin 4) : BitVec 32 := BitVec.ofNat 32 (16 * r.val)

variable (d : Dev nD) (L : grid0.Coords) (r : Fin 4)

/-- Unit-stride rectangles of one size at equal offsets are one rectangle. -/
theorem rect_unit_congr {s : Shape} {o o' z : Fin s.rank → Nat} (h : ∀ a, o a + z a ≤ s.size a)
    (h' : ∀ a, o' a + z a ≤ s.size a) (e : o = o') : Rect.unit o z h = Rect.unit o' z h' := by
  subst e; rfl

theorem tblRect_eq :
    Rect.unit (s := S2048x2048) (k0_off1 L (wOf r)) S16x2048.size (k0_off1_inb L r) = tRect (cOf L) (jOf L) r :=
  rect_unit_congr _ _ (Gen.k0_off1_eq L r)

theorem set_tblAt : (tblAt L (wOf r) (k0_off1_inb L r)).view.set = tSet (cOf L, jOf L, r) := by
  show ((View.whole main_arg1_scv).slice (Rect.unit (s := S2048x2048) (k0_off1 L (wOf r)) S16x2048.size (k0_off1_inb L r))).set = _
  rw [View.set_slice_whole, tblRect_eq]
  rfl

theorem pts_tbl (ft : Buf (Elt F) (tLoc d)) :
    (mine d (cV L) (jV L) (tblAt L (wOf r) (k0_off1_inb L r)) ft : sProp 𝕄) = tLoc d ↦[tSet (cOf L, jOf L, r)]{fullShare} ft := by
  show (tLoc d ↦[(tblAt L (wOf r) (k0_off1_inb L r)).view.set]{fullShare} ft : sProp 𝕄) = _
  rw [set_tblAt]

theorem outRect2_eq :
    Rect.unit (s := S4x2048x2048) (k0_off2 L (wOf r)) S1x16x2048.size (k0_off2_inb L r) = oRect 0 (cOf L) (jOf L) r :=
  rect_unit_congr _ _ (Gen.k0_off2_eq L r)

theorem set_outAt2 : (outAt2 L (wOf r) (k0_off2_inb L r)).view.set = oSet (0, cOf L, jOf L, r) := by
  show (((View.whole main_v0_scv).slice (Rect.unit (s := S4x2048x2048) (k0_off2 L (wOf r)) S1x16x2048.size (k0_off2_inb L r))).reshape
    S16x2048 squeezes_S1x16x2048_S16x2048.numel_eq).set = _
  rw [View.set_reshape, View.set_slice_whole]
  exact congrArg (fun R : Rect SO => R.set) (outRect2_eq L r)

theorem pts_out2 (fo : Buf (Elt F) (oLoc d)) :
    (mine d (cV L) (jV L) (outAt2 L (wOf r) (k0_off2_inb L r)) fo : sProp 𝕄) = oLoc d ↦[oSet (0, cOf L, jOf L, r)]{fullShare} fo := by
  show (oLoc d ↦[(outAt2 L (wOf r) (k0_off2_inb L r)).view.set]{fullShare} fo : sProp 𝕄) = _
  rw [set_outAt2]

theorem outRect3_eq :
    Rect.unit (s := S4x2048x2048) (k0_off3 L (wOf r)) S1x16x2048.size (k0_off3_inb L r) = oRect 1 (cOf L) (jOf L) r :=
  rect_unit_congr _ _ (Gen.k0_off3_eq L r)

theorem set_outAt3 : (outAt3 L (wOf r) (k0_off3_inb L r)).view.set = oSet (1, cOf L, jOf L, r) := by
  show (((View.whole main_v0_scv).slice (Rect.unit (s := S4x2048x2048) (k0_off3 L (wOf r)) S1x16x2048.size (k0_off3_inb L r))).reshape
    S16x2048 squeezes_S1x16x2048_S16x2048.numel_eq).set = _
  rw [View.set_reshape, View.set_slice_whole]
  exact congrArg (fun R : Rect SO => R.set) (outRect3_eq L r)

theorem pts_out3 (fo : Buf (Elt F) (oLoc d)) :
    (mine d (cV L) (jV L) (outAt3 L (wOf r) (k0_off3_inb L r)) fo : sProp 𝕄) = oLoc d ↦[oSet (1, cOf L, jOf L, r)]{fullShare} fo := by
  show (oLoc d ↦[(outAt3 L (wOf r) (k0_off3_inb L r)).view.set]{fullShare} fo : sProp 𝕄) = _
  rw [set_outAt3]

theorem outRect4_eq :
    Rect.unit (s := S4x2048x2048) (k0_off4 L (wOf r)) S1x16x2048.size (k0_off4_inb L r) = oRect 2 (cOf L) (jOf L) r :=
  rect_unit_congr _ _ (Gen.k0_off4_eq L r)

theorem set_outAt4 : (outAt4 L (wOf r) (k0_off4_inb L r)).view.set = oSet (2, cOf L, jOf L, r) := by
  show (((View.whole main_v0_scv).slice (Rect.unit (s := S4x2048x2048) (k0_off4 L (wOf r)) S1x16x2048.size (k0_off4_inb L r))).reshape
    S16x2048 squeezes_S1x16x2048_S16x2048.numel_eq).set = _
  rw [View.set_reshape, View.set_slice_whole]
  exact congrArg (fun R : Rect SO => R.set) (outRect4_eq L r)

theorem pts_out4 (fo : Buf (Elt F) (oLoc d)) :
    (mine d (cV L) (jV L) (outAt4 L (wOf r) (k0_off4_inb L r)) fo : sProp 𝕄) = oLoc d ↦[oSet (2, cOf L, jOf L, r)]{fullShare} fo := by
  show (oLoc d ↦[(outAt4 L (wOf r) (k0_off4_inb L r)).view.set]{fullShare} fo : sProp 𝕄) = _
  rw [set_outAt4]

theorem outRect5_eq :
    Rect.unit (s := S4x2048x2048) (k0_off5 L (wOf r)) S1x16x2048.size (k0_off5_inb L r) = oRect 3 (cOf L) (jOf L) r :=
  rect_unit_congr _ _ (Gen.k0_off5_eq L r)

theorem set_outAt5 : (outAt5 L (wOf r) (k0_off5_inb L r)).view.set = oSet (3, cOf L, jOf L, r) := by
  show (((View.whole main_v0_scv).slice (Rect.unit (s := S4x2048x2048) (k0_off5 L (wOf r)) S1x16x2048.size (k0_off5_inb L r))).reshape
    S16x2048 squeezes_S1x16x2048_S16x2048.numel_eq).set = _
  rw [View.set_reshape, View.set_slice_whole]
  exact congrArg (fun R : Rect SO => R.set) (outRect5_eq L r)

theorem pts_out5 (fo : Buf (Elt F) (oLoc d)) :
    (mine d (cV L) (jV L) (outAt5 L (wOf r) (k0_off5_inb L r)) fo : sProp 𝕄) = oLoc d ↦[oSet (3, cOf L, jOf L, r)]{fullShare} fo := by
  show (oLoc d ↦[(outAt5 L (wOf r) (k0_off5_inb L r)).view.set]{fullShare} fo : sProp 𝕄) = _
  rw [set_outAt5]

/-- The result piece at offsets o3, read as 16 × 2048, and the table piece at offsets o2, as views of their arrays. -/
abbrev outV (o3 : Fin 3 → Nat) (h3 : ∀ a, o3 a + S1x16x2048.size a ≤ S4x2048x2048.size a) : View sig .scVector .hbm S16x2048 .f32 :=
  ((View.whole main_v0_scv).slice (Rect.unit (s := S4x2048x2048) o3 S1x16x2048.size h3)).reshape S16x2048
    squeezes_S1x16x2048_S16x2048.numel_eq
abbrev tblV (o2 : Fin 2 → Nat) (h2 : ∀ a, o2 a + S16x2048.size a ≤ S2048x2048.size a) : View sig .scVector .hbm S16x2048 .f32 :=
  (View.whole main_arg1_scv).slice (Rect.unit (s := S2048x2048) o2 S16x2048.size h2)

open Idealize.ShloMosaic.ValueIdx in
/-- The table piece at offsets (ρ, κ) places a 16 × 2048 index where the result piece at offsets (b, ρ, κ), read as
    16 × 2048, places it, less the batch coordinate. -/
theorem emb_out_tbl (o3 : Fin 3 → Nat) (o2 : Fin 2 → Nat)
    (h3 : ∀ a, o3 a + S1x16x2048.size a ≤ S4x2048x2048.size a) (h2 : ∀ a, o2 a + S16x2048.size a ≤ S2048x2048.size a)
    (e1 : o3 1 = o2 0) (e2 : o3 2 = o2 1) (y : S16x2048.Idx) :
    (ix2 ((outV o3 h3).emb y 1) ((outV o3 h3).emb y 2) : ST.Idx) = (tblV o2 h2).emb y := by
  obtain ⟨x0, x1, rfl⟩ : ∃ x0 x1, y = ix2 x0 x1 := ⟨y 0, y 1, eq_ix2 y⟩
  have hr : Shape.reshapeEquiv (s := S1x16x2048) (s' := S16x2048) squeezes_S1x16x2048_S16x2048.numel_eq (ix2 x0 x1)
      = ix3 (⟨0, Nat.one_pos⟩ : Fin 1) x0 x1 := reshapeEquiv_ix2_1ab _ x0 x1
  funext a
  apply Fin.ext
  match a with
  | ⟨0, _⟩ =>
    show o3 1 + 1 * ((Shape.reshapeEquiv (s := S1x16x2048) (s' := S16x2048) squeezes_S1x16x2048_S16x2048.numel_eq (ix2 x0 x1)) 1).val
      = o2 0 + 1 * x0.val
    rw [hr, e1]
  | ⟨1, _⟩ =>
    show o3 2 + 1 * ((Shape.reshapeEquiv (s := S1x16x2048) (s' := S16x2048) squeezes_S1x16x2048_S16x2048.numel_eq (ix2 x0 x1)) 2).val
      = o2 1 + 1 * x1.val
    rw [hr, e2]

/-- What the result piece at offsets (b, ρ, κ) holds once the table piece at offsets (ρ, κ) is written over the whole of
    it: at every one of its elements, the table repeated. -/
theorem pts_landed_gen (o3 : Fin 3 → Nat) (o2 : Fin 2 → Nat)
    (h3 : ∀ a, o3 a + S1x16x2048.size a ≤ S4x2048x2048.size a) (h2 : ∀ a, o2 a + S16x2048.size a ≤ S2048x2048.size a)
    (e1 : o3 1 = o2 0) (e2 : o3 2 = o2 1) (ft : Buf (Elt F) (tLoc d)) (fo : Buf (Elt F) (oLoc d)) :
    (oLoc d ↦[(outV o3 h3).set]{fullShare}
        (outV o3 h3).writes (Elt F) fo [⟨Rect.whole S16x2048, (tblV o2 h2).read (Elt F) ft⟩] : sProp 𝕄)
      = oLoc d ↦[(outV o3 h3).set]{fullShare} Spec.repeated ft := by
  refine pointsTo_congr fun i hi => ?_
  obtain ⟨y, -, rfl⟩ := Finset.mem_map.mp hi
  have h1 := congrFun (View.read_writes_whole (outV o3 h3) fo ((tblV o2 h2).read (Elt F) ft)) y
  rw [View.read_apply, View.read_apply, cast_eq, cast_eq] at h1
  rw [h1, Spec.repeated_apply, emb_out_tbl o3 o2 h3 h2 e1 e2 y]

/-- What a copy out of chunk r's table rows leaves on the result piece of batch entry 0: the table repeated. -/
theorem pts_landed2 (ft : Buf (Elt F) (tLoc d)) (fo : Buf (Elt F) (oLoc d)) :
    (mine d (cV L) (jV L) (outAt2 L (wOf r) (k0_off2_inb L r))
        ((outAt2 L (wOf r) (k0_off2_inb L r)).view.writes (Elt F) fo
          [⟨Rect.whole S16x2048, (tblAt L (wOf r) (k0_off1_inb L r)).view.read (Elt F) ft⟩]) : sProp 𝕄)
      = oLoc d ↦[oSet (0, cOf L, jOf L, r)]{fullShare} Spec.repeated ft := by
  exact (pts_landed_gen d (k0_off2 L (wOf r)) (k0_off1 L (wOf r)) (k0_off2_inb L r) (k0_off1_inb L r)
    ((congrFun (Gen.k0_off2_eq L r) 1).trans (congrFun (Gen.k0_off1_eq L r) 0).symm)
    ((congrFun (Gen.k0_off2_eq L r) 2).trans (congrFun (Gen.k0_off1_eq L r) 1).symm) ft fo).trans
    (pts_out2 d L r (Spec.repeated ft))
theorem pts_landed3 (ft : Buf (Elt F) (tLoc d)) (fo : Buf (Elt F) (oLoc d)) :
    (mine d (cV L) (jV L) (outAt3 L (wOf r) (k0_off3_inb L r))
        ((outAt3 L (wOf r) (k0_off3_inb L r)).view.writes (Elt F) fo
          [⟨Rect.whole S16x2048, (tblAt L (wOf r) (k0_off1_inb L r)).view.read (Elt F) ft⟩]) : sProp 𝕄)
      = oLoc d ↦[oSet (1, cOf L, jOf L, r)]{fullShare} Spec.repeated ft := by
  exact (pts_landed_gen d (k0_off3 L (wOf r)) (k0_off1 L (wOf r)) (k0_off3_inb L r) (k0_off1_inb L r)
    ((congrFun (Gen.k0_off3_eq L r) 1).trans (congrFun (Gen.k0_off1_eq L r) 0).symm)
    ((congrFun (Gen.k0_off3_eq L r) 2).trans (congrFun (Gen.k0_off1_eq L r) 1).symm) ft fo).trans
    (pts_out3 d L r (Spec.repeated ft))
theorem pts_landed4 (ft : Buf (Elt F) (tLoc d)) (fo : Buf (Elt F) (oLoc d)) :
    (mine d (cV L) (jV L) (outAt4 L (wOf r) (k0_off4_inb L r))
        ((outAt4 L (wOf r) (k0_off4_inb L r)).view.writes (Elt F) fo
          [⟨Rect.whole S16x2048, (tblAt L (wOf r) (k0_off1_inb L r)).view.read (Elt F) ft⟩]) : sProp 𝕄)
      = oLoc d ↦[oSet (2, cOf L, jOf L, r)]{fullShare} Spec.repeated ft := by
  exact (pts_landed_gen d (k0_off4 L (wOf r)) (k0_off1 L (wOf r)) (k0_off4_inb L r) (k0_off1_inb L r)
    ((congrFun (Gen.k0_off4_eq L r) 1).trans (congrFun (Gen.k0_off1_eq L r) 0).symm)
    ((congrFun (Gen.k0_off4_eq L r) 2).trans (congrFun (Gen.k0_off1_eq L r) 1).symm) ft fo).trans
    (pts_out4 d L r (Spec.repeated ft))
theorem pts_landed5 (ft : Buf (Elt F) (tLoc d)) (fo : Buf (Elt F) (oLoc d)) :
    (mine d (cV L) (jV L) (outAt5 L (wOf r) (k0_off5_inb L r))
        ((outAt5 L (wOf r) (k0_off5_inb L r)).view.writes (Elt F) fo
          [⟨Rect.whole S16x2048, (tblAt L (wOf r) (k0_off1_inb L r)).view.read (Elt F) ft⟩]) : sProp 𝕄)
      = oLoc d ↦[oSet (3, cOf L, jOf L, r)]{fullShare} Spec.repeated ft := by
  exact (pts_landed_gen d (k0_off5 L (wOf r)) (k0_off1 L (wOf r)) (k0_off5_inb L r) (k0_off1_inb L r)
    ((congrFun (Gen.k0_off5_eq L r) 1).trans (congrFun (Gen.k0_off1_eq L r) 0).symm)
    ((congrFun (Gen.k0_off5_eq L r) 2).trans (congrFun (Gen.k0_off1_eq L r) 1).symm) ft fo).trans
    (pts_out5 d L r (Spec.repeated ft))

/-- A whole piece written last is what the view reads back, whatever was written before. -/
theorem read_writes_whole_cons {sg : RefSig} {κ : Kind} {sp : Space} {s : Shape} {e : EltTy} {Val : EltTy → Type}
    (v : View sg κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- The two slots' rectangles in the scratch: planes 0 and 1 of its leading axis. -/
abbrev slotRect0 : Rect S2x16x2048 := Rect.unit (s := S2x16x2048) ![0, 0, 0] S1x16x2048.size inb_S2x16x2048_S1x16x2048_0_0_0
abbrev slotRect1 : Rect S2x16x2048 := Rect.unit (s := S2x16x2048) ![1, 0, 0] S1x16x2048.size inb_S2x16x2048_S1x16x2048_1_0_0

theorem set_slot0 : (slot0 : Memref sig .scVector .vmem S16x2048 .f32).view.set = slotRect0.set := by
  show (((View.whole cc0_scratch0).slice slotRect0).reshape S16x2048 squeezes_S1x16x2048_S16x2048.numel_eq).set = _
  rw [View.set_reshape, View.set_slice_whole]
theorem set_slot1 : (slot1 : Memref sig .scVector .vmem S16x2048 .f32).view.set = slotRect1.set := by
  show (((View.whole cc0_scratch0).slice slotRect1).reshape S16x2048 squeezes_S1x16x2048_S16x2048.numel_eq).set = _
  rw [View.set_reshape, View.set_slice_whole]

/-- The planes are apart on the leading axis. -/
theorem slots_disjoint : Disjoint slotRect0.set slotRect1.set :=
  Rect.unit_disjoint (0 : Fin 3) (Or.inl (Nat.le_refl 1))

/-- The leading axis has extent two: every element is in plane 0 or plane 1. -/
theorem slots_cover : slotRect0.set ∪ slotRect1.set = Finset.univ := by
  ext i
  simp only [Finset.mem_union, Rect.mem_set_unit, Finset.mem_univ, iff_true]
  have h0 : (i 0).val < 2 := (i 0).isLt
  have h1 : (i 1).val < 16 := (i 1).isLt
  have h2 : (i 2).val < 2048 := (i 2).isLt
  by_cases h : (i 0).val = 0
  · left; intro a
    match a with
    | ⟨0, _⟩ => show 0 ≤ (i 0).val ∧ (i 0).val < 0 + 1; omega
    | ⟨1, _⟩ => show 0 ≤ (i 1).val ∧ (i 1).val < 0 + 16; omega
    | ⟨2, _⟩ => show 0 ≤ (i 2).val ∧ (i 2).val < 0 + 2048; omega
  · right; intro a
    match a with
    | ⟨0, _⟩ => show 1 ≤ (i 0).val ∧ (i 0).val < 1 + 1; omega
    | ⟨1, _⟩ => show 0 ≤ (i 1).val ∧ (i 1).val < 0 + 16; omega
    | ⟨2, _⟩ => show 0 ≤ (i 2).val ∧ (i 2).val < 0 + 2048; omega

/-- The scratch is its two slots. -/
theorem scratch_split (c : Fin τ.nSC) (j : Fin τ.nSub) (f : Buf (Elt F) ((V d c j).loc cc0_scratch0)) :
    ((V d c j).loc cc0_scratch0 ↦{fullShare} f : sProp 𝕄) ⊢ iprop(mine d c j slot0 f ∗ mine d c j slot1 f) := by
  show ((V d c j).loc cc0_scratch0 ↦[Finset.univ]{fullShare} f : sProp 𝕄)
    ⊢ iprop(((V d c j).loc cc0_scratch0 ↦[(slot0 : Memref sig .scVector .vmem S16x2048 .f32).view.set]{fullShare} f)
        ∗ ((V d c j).loc cc0_scratch0 ↦[(slot1 : Memref sig .scVector .vmem S16x2048 .f32).view.set]{fullShare} f))
  rw [set_slot0, set_slot1, ← slots_cover]
  exact (pointsTo_union slots_disjoint).1
theorem scratch_join (c : Fin τ.nSC) (j : Fin τ.nSub) (f0 : Buf (Elt F) ((V d c j).loc cc0_scratch0)) (f1 : Buf (Elt F) ((V d c j).loc cc0_scratch0)) :
    iprop(mine d c j slot0 f0 ∗ mine d c j slot1 f1) ⊢ (iprop(∃ f, (V d c j).loc cc0_scratch0 ↦{fullShare} f) : sProp 𝕄) := by
  show iprop(((V d c j).loc cc0_scratch0 ↦[(slot0 : Memref sig .scVector .vmem S16x2048 .f32).view.set]{fullShare} f0)
        ∗ ((V d c j).loc cc0_scratch0 ↦[(slot1 : Memref sig .scVector .vmem S16x2048 .f32).view.set]{fullShare} f1))
    ⊢ (iprop(∃ f, (V d c j).loc cc0_scratch0 ↦[Finset.univ]{fullShare} f) : sProp 𝕄)
  rw [set_slot0, set_slot1, ← slots_cover]
  exact exists_intro_trans _ (pointsTo_join slots_disjoint)

end Cert.Proof.KB

end
-- ==== Proof.TileBits.lean ====
/-
  One vector subcore's task. Subcore (c, j) fetches each of its four 16-row table chunks into a scratch slot (chunks 0
  and 2 into slot 0, chunks 1 and 3 into slot 1; one copy in flight per slot, each on the slot's own semaphore) and fans
  the slot out to the same rows of the four batch planes of the result (four copies on the slot's outgoing semaphore,
  all reading the slot, all waited for before the slot is fetched into again). Every copy out carries what the table
  holds on the chunk, so the task leaves on each of its sixteen result pieces out (b, n, d) = table (n, d), and leaves
  its table chunks as they were.
-/
import proofs.«207500_g41051297415787_cont_8to1_b_1522_22_alg».proof.Proof.SetupBits
import proofs.«207500_g41051297415787_cont_8to1_b_1522_22_alg».proof.Proof.LandBits

noncomputable section

namespace Cert.Proof.KB

open Cert.Kernel Cert.Kernel.Gen
open Cert.Proof.Chunks
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- A conjunction over four indices, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- What subcore (c, j) is handed: its four table chunks, and its sixteen result pieces at the launch contents. -/
def goRes (d : Dev nD) (c : Fin 2) (j : Fin 16) : sProp 𝕄 :=
  iprop((bigSep Finset.univ fun r : Fin 4 => tLoc d ↦[tSet (c, j, r)]{fullShare} m (tLoc d))
    ∗ bigSep Finset.univ fun r : Fin 4 => bigSep Finset.univ fun b : Fin 4 => oLoc d ↦[oSet (b, c, j, r)]{fullShare} m (oLoc d))

/-- What it hands back: the table chunks unchanged, every result piece holding the table repeated. -/
def tdRes (d : Dev nD) (c : Fin 2) (j : Fin 16) : sProp 𝕄 :=
  iprop((bigSep Finset.univ fun r : Fin 4 => tLoc d ↦[tSet (c, j, r)]{fullShare} m (tLoc d))
    ∗ bigSep Finset.univ fun r : Fin 4 => bigSep Finset.univ fun b : Fin 4 => oLoc d ↦[oSet (b, c, j, r)]{fullShare} Spec.repeated (m (tLoc d)))

section Tile

variable (d : Dev nD) (L : grid0.Coords)

/-! ### The pieces at the four literal offsets, as the body spells them -/

theorem pts_tbl_0 (ft : Buf (Elt F) (tLoc d)) :
    (mine d (cV L) (jV L) (tblAt L 0#32 (k0_off1_inb L 0)) ft : sProp 𝕄) = tLoc d ↦[tSet (cOf L, jOf L, 0)]{fullShare} ft :=
  pts_tbl d L 0 ft
theorem pts_tbl_1 (ft : Buf (Elt F) (tLoc d)) :
    (mine d (cV L) (jV L) (tblAt L 16#32 (k0_off1_inb L 1)) ft : sProp 𝕄) = tLoc d ↦[tSet (cOf L, jOf L, 1)]{fullShare} ft :=
  pts_tbl d L 1 ft
theorem pts_tbl_2 (ft : Buf (Elt F) (tLoc d)) :
    (mine d (cV L) (jV L) (tblAt L 32#32 (k0_off1_inb L 2)) ft : sProp 𝕄) = tLoc d ↦[tSet (cOf L, jOf L, 2)]{fullShare} ft :=
  pts_tbl d L 2 ft
theorem pts_tbl_3 (ft : Buf (Elt F) (tLoc d)) :
    (mine d (cV L) (jV L) (tblAt L 48#32 (k0_off1_inb L 3)) ft : sProp 𝕄) = tLoc d ↦[tSet (cOf L, jOf L, 3)]{fullShare} ft :=
  pts_tbl d L 3 ft
theorem pts_out2_0 (fo : Buf (Elt F) (oLoc d)) :
    (mine d (cV L) (jV L) (outAt2 L 0#32 (k0_off2_inb L 0)) fo : sProp 𝕄) = oLoc d ↦[oSet (0, cOf L, jOf L, 0)]{fullShare} fo :=
  pts_out2 d L 0 fo
theorem pts_out3_0 (fo : Buf (Elt F) (oLoc d)) :
    (mine d (cV L) (jV L) (outAt3 L 0#32 (k0_off3_inb L 0)) fo : sProp 𝕄) = oLoc d ↦[oSet (1, cOf L, jOf L, 0)]{fullShare} fo :=
  pts_out3 d L 0 fo
theorem pts_out4_0 (fo : Buf (Elt F) (oLoc d)) :
    (mine d (cV L) (jV L) (outAt4 L 0#32 (k0_off4_inb L 0)) fo : sProp 𝕄) = oLoc d ↦[oSet (2, cOf L, jOf L, 0)]{fullShare} fo :=
  pts_out4 d L 0 fo
theorem pts_out5_0 (fo : Buf (Elt F) (oLoc d)) :
    (mine d (cV L) (jV L) (outAt5 L 0#32 (k0_off5_inb L 0)) fo : sProp 𝕄) = oLoc d ↦[oSet (3, cOf L, jOf L, 0)]{fullShare} fo :=
  pts_out5 d L 0 fo
theorem pts_out2_1 (fo : Buf (Elt F) (oLoc d)) :
    (mine d (cV L) (jV L) (outAt2 L 16#32 (k0_off2_inb L 1)) fo : sProp 𝕄) = oLoc d ↦[oSet (0, cOf L, jOf L, 1)]{fullShare} fo :=
  pts_out2 d L 1 fo
theorem pts_out3_1 (fo : Buf (Elt F) (oLoc d)) :
    (mine d (cV L) (jV L) (outAt3 L 16#32 (k0_off3_inb L 1)) fo : sProp 𝕄) = oLoc d ↦[oSet (1, cOf L, jOf L, 1)]{fullShare} fo :=
  pts_out3 d L 1 fo
theorem pts_out4_1 (fo : Buf (Elt F) (oLoc d)) :
    (mine d (cV L) (jV L) (outAt4 L 16#32 (k0_off4_inb L 1)) fo : sProp 𝕄) = oLoc d ↦[oSet (2, cOf L, jOf L, 1)]{fullShare} fo :=
  pts_out4 d L 1 fo
theorem pts_out5_1 (fo : Buf (Elt F) (oLoc d)) :
    (mine d (cV L) (jV L) (outAt5 L 16#32 (k0_off5_inb L 1)) fo : sProp 𝕄) = oLoc d ↦[oSet (3, cOf L, jOf L, 1)]{fullShare} fo :=
  pts_out5 d L 1 fo
theorem pts_out2_2 (fo : Buf (Elt F) (oLoc d)) :
    (mine d (cV L) (jV L) (outAt2 L 32#32 (k0_off2_inb L 2)) fo : sProp 𝕄) = oLoc d ↦[oSet (0, cOf L, jOf L, 2)]{fullShare} fo :=
  pts_out2 d L 2 fo
theorem pts_out3_2 (fo : Buf (Elt F) (oLoc d)) :
    (mine d (cV L) (jV L) (outAt3 L 32#32 (k0_off3_inb L 2)) fo : sProp 𝕄) = oLoc d ↦[oSet (1, cOf L, jOf L, 2)]{fullShare} fo :=
  pts_out3 d L 2 fo
theorem pts_out4_2 (fo : Buf (Elt F) (oLoc d)) :
    (mine d (cV L) (jV L) (outAt4 L 32#32 (k0_off4_inb L 2)) fo : sProp 𝕄) = oLoc d ↦[oSet (2, cOf L, jOf L, 2)]{fullShare} fo :=
  pts_out4 d L 2 fo
theorem pts_out5_2 (fo : Buf (Elt F) (oLoc d)) :
    (mine d (cV L) (jV L) (outAt5 L 32#32 (k0_off5_inb L 2)) fo : sProp 𝕄) = oLoc d ↦[oSet (3, cOf L, jOf L, 2)]{fullShare} fo :=
  pts_out5 d L 2 fo
theorem pts_out2_3 (fo : Buf (Elt F) (oLoc d)) :
    (mine d (cV L) (jV L) (outAt2 L 48#32 (k0_off2_inb L 3)) fo : sProp 𝕄) = oLoc d ↦[oSet (0, cOf L, jOf L, 3)]{fullShare} fo :=
  pts_out2 d L 3 fo
theorem pts_out3_3 (fo : Buf (Elt F) (oLoc d)) :
    (mine d (cV L) (jV L) (outAt3 L 48#32 (k0_off3_inb L 3)) fo : sProp 𝕄) = oLoc d ↦[oSet (1, cOf L, jOf L, 3)]{fullShare} fo :=
  pts_out3 d L 3 fo
theorem pts_out4_3 (fo : Buf (Elt F) (oLoc d)) :
    (mine d (cV L) (jV L) (outAt4 L 48#32 (k0_off4_inb L 3)) fo : sProp 𝕄) = oLoc d ↦[oSet (2, cOf L, jOf L, 3)]{fullShare} fo :=
  pts_out4 d L 3 fo
theorem pts_out5_3 (fo : Buf (Elt F) (oLoc d)) :
    (mine d (cV L) (jV L) (outAt5 L 48#32 (k0_off5_inb L 3)) fo : sProp 𝕄) = oLoc d ↦[oSet (3, cOf L, jOf L, 3)]{fullShare} fo :=
  pts_out5 d L 3 fo

/-- What a copy out carries: the slot read back after the copy in filled it whole is the table chunk that copy read. -/
theorem payload_eq {slot : Memref sig .scVector .vmem S16x2048 .f32} (g : slot.view.ty.Contents (Elt F)) (X : S16x2048.Idx → Elt F .f32)
    (Ls : List (View.Piece (Elt F) S16x2048 .f32)) :
    ReadAs.same.apply (slot.view.read (Elt F) (slot.view.writes (Elt F) g (⟨Rect.whole S16x2048, ReadAs.same.apply X⟩ :: Ls))) = X := by
  rw [ReadAs.apply_same, read_writes_whole_cons, ReadAs.apply_same]

theorem pts_landed2_0 (ft : Buf (Elt F) (tLoc d)) (fo : Buf (Elt F) (oLoc d)) :
    (mine d (cV L) (jV L) (outAt2 L 0#32 (k0_off2_inb L 0))
        ((outAt2 L 0#32 (k0_off2_inb L 0)).view.writes (Elt F) fo
          [⟨Rect.whole S16x2048, (tblAt L 0#32 (k0_off1_inb L 0)).view.read (Elt F) ft⟩]) : sProp 𝕄)
      = oLoc d ↦[oSet (0, cOf L, jOf L, 0)]{fullShare} Spec.repeated ft :=
  pts_landed2 d L 0 ft fo
theorem pts_landed3_0 (ft : Buf (Elt F) (tLoc d)) (fo : Buf (Elt F) (oLoc d)) :
    (mine d (cV L) (jV L) (outAt3 L 0#32 (k0_off3_inb L 0))
        ((outAt3 L 0#32 (k0_off3_inb L 0)).view.writes (Elt F) fo
          [⟨Rect.whole S16x2048, (tblAt L 0#32 (k0_off1_inb L 0)).view.read (Elt F) ft⟩]) : sProp 𝕄)
      = oLoc d ↦[oSet (1, cOf L, jOf L, 0)]{fullShare} Spec.repeated ft :=
  pts_landed3 d L 0 ft fo
theorem pts_landed4_0 (ft : Buf (Elt F) (tLoc d)) (fo : Buf (Elt F) (oLoc d)) :
    (mine d (cV L) (jV L) (outAt4 L 0#32 (k0_off4_inb L 0))
        ((outAt4 L 0#32 (k0_off4_inb L 0)).view.writes (Elt F) fo
          [⟨Rect.whole S16x2048, (tblAt L 0#32 (k0_off1_inb L 0)).view.read (Elt F) ft⟩]) : sProp 𝕄)
      = oLoc d ↦[oSet (2, cOf L, jOf L, 0)]{fullShare} Spec.repeated ft :=
  pts_landed4 d L 0 ft fo
theorem pts_landed5_0 (ft : Buf (Elt F) (tLoc d)) (fo : Buf (Elt F) (oLoc d)) :
    (mine d (cV L) (jV L) (outAt5 L 0#32 (k0_off5_inb L 0))
        ((outAt5 L 0#32 (k0_off5_inb L 0)).view.writes (Elt F) fo
          [⟨Rect.whole S16x2048, (tblAt L 0#32 (k0_off1_inb L 0)).view.read (Elt F) ft⟩]) : sProp 𝕄)
      = oLoc d ↦[oSet (3, cOf L, jOf L, 0)]{fullShare} Spec.repeated ft :=
  pts_landed5 d L 0 ft fo
theorem pts_landed2_1 (ft : Buf (Elt F) (tLoc d)) (fo : Buf (Elt F) (oLoc d)) :
    (mine d (cV L) (jV L) (outAt2 L 16#32 (k0_off2_inb L 1))
        ((outAt2 L 16#32 (k0_off2_inb L 1)).view.writes (Elt F) fo
          [⟨Rect.whole S16x2048, (tblAt L 16#32 (k0_off1_inb L 1)).view.read (Elt F) ft⟩]) : sProp 𝕄)
      = oLoc d ↦[oSet (0, cOf L, jOf L, 1)]{fullShare} Spec.repeated ft :=
  pts_landed2 d L 1 ft fo
theorem pts_landed3_1 (ft : Buf (Elt F) (tLoc d)) (fo : Buf (Elt F) (oLoc d)) :
    (mine d (cV L) (jV L) (outAt3 L 16#32 (k0_off3_inb L 1))
        ((outAt3 L 16#32 (k0_off3_inb L 1)).view.writes (Elt F) fo
          [⟨Rect.whole S16x2048, (tblAt L 16#32 (k0_off1_inb L 1)).view.read (Elt F) ft⟩]) : sProp 𝕄)
      = oLoc d ↦[oSet (1, cOf L, jOf L, 1)]{fullShare} Spec.repeated ft :=
  pts_landed3 d L 1 ft fo
theorem pts_landed4_1 (ft : Buf (Elt F) (tLoc d)) (fo : Buf (Elt F) (oLoc d)) :
    (mine d (cV L) (jV L) (outAt4 L 16#32 (k0_off4_inb L 1))
        ((outAt4 L 16#32 (k0_off4_inb L 1)).view.writes (Elt F) fo
          [⟨Rect.whole S16x2048, (tblAt L 16#32 (k0_off1_inb L 1)).view.read (Elt F) ft⟩]) : sProp 𝕄)
      = oLoc d ↦[oSet (2, cOf L, jOf L, 1)]{fullShare} Spec.repeated ft :=
  pts_landed4 d L 1 ft fo
theorem pts_landed5_1 (ft : Buf (Elt F) (tLoc d)) (fo : Buf (Elt F) (oLoc d)) :
    (mine d (cV L) (jV L) (outAt5 L 16#32 (k0_off5_inb L 1))
        ((outAt5 L 16#32 (k0_off5_inb L 1)).view.writes (Elt F) fo
          [⟨Rect.whole S16x2048, (tblAt L 16#32 (k0_off1_inb L 1)).view.read (Elt F) ft⟩]) : sProp 𝕄)
      = oLoc d ↦[oSet (3, cOf L, jOf L, 1)]{fullShare} Spec.repeated ft :=
  pts_landed5 d L 1 ft fo
theorem pts_landed2_2 (ft : Buf (Elt F) (tLoc d)) (fo : Buf (Elt F) (oLoc d)) :
    (mine d (cV L) (jV L) (outAt2 L 32#32 (k0_off2_inb L 2))
        ((outAt2 L 32#32 (k0_off2_inb L 2)).view.writes (Elt F) fo
          [⟨Rect.whole S16x2048, (tblAt L 32#32 (k0_off1_inb L 2)).view.read (Elt F) ft⟩]) : sProp 𝕄)
      = oLoc d ↦[oSet (0, cOf L, jOf L, 2)]{fullShare} Spec.repeated ft :=
  pts_landed2 d L 2 ft fo
theorem pts_landed3_2 (ft : Buf (Elt F) (tLoc d)) (fo : Buf (Elt F) (oLoc d)) :
    (mine d (cV L) (jV L) (outAt3 L 32#32 (k0_off3_inb L 2))
        ((outAt3 L 32#32 (k0_off3_inb L 2)).view.writes (Elt F) fo
          [⟨Rect.whole S16x2048, (tblAt L 32#32 (k0_off1_inb L 2)).view.read (Elt F) ft⟩]) : sProp 𝕄)
      = oLoc d ↦[oSet (1, cOf L, jOf L, 2)]{fullShare} Spec.repeated ft :=
  pts_landed3 d L 2 ft fo
theorem pts_landed4_2 (ft : Buf (Elt F) (tLoc d)) (fo : Buf (Elt F) (oLoc d)) :
    (mine d (cV L) (jV L) (outAt4 L 32#32 (k0_off4_inb L 2))
        ((outAt4 L 32#32 (k0_off4_inb L 2)).view.writes (Elt F) fo
          [⟨Rect.whole S16x2048, (tblAt L 32#32 (k0_off1_inb L 2)).view.read (Elt F) ft⟩]) : sProp 𝕄)
      = oLoc d ↦[oSet (2, cOf L, jOf L, 2)]{fullShare} Spec.repeated ft :=
  pts_landed4 d L 2 ft fo
theorem pts_landed5_2 (ft : Buf (Elt F) (tLoc d)) (fo : Buf (Elt F) (oLoc d)) :
    (mine d (cV L) (jV L) (outAt5 L 32#32 (k0_off5_inb L 2))
        ((outAt5 L 32#32 (k0_off5_inb L 2)).view.writes (Elt F) fo
          [⟨Rect.whole S16x2048, (tblAt L 32#32 (k0_off1_inb L 2)).view.read (Elt F) ft⟩]) : sProp 𝕄)
      = oLoc d ↦[oSet (3, cOf L, jOf L, 2)]{fullShare} Spec.repeated ft :=
  pts_landed5 d L 2 ft fo
theorem pts_landed2_3 (ft : Buf (Elt F) (tLoc d)) (fo : Buf (Elt F) (oLoc d)) :
    (mine d (cV L) (jV L) (outAt2 L 48#32 (k0_off2_inb L 3))
        ((outAt2 L 48#32 (k0_off2_inb L 3)).view.writes (Elt F) fo
          [⟨Rect.whole S16x2048, (tblAt L 48#32 (k0_off1_inb L 3)).view.read (Elt F) ft⟩]) : sProp 𝕄)
      = oLoc d ↦[oSet (0, cOf L, jOf L, 3)]{fullShare} Spec.repeated ft :=
  pts_landed2 d L 3 ft fo
theorem pts_landed3_3 (ft : Buf (Elt F) (tLoc d)) (fo : Buf (Elt F) (oLoc d)) :
    (mine d (cV L) (jV L) (outAt3 L 48#32 (k0_off3_inb L 3))
        ((outAt3 L 48#32 (k0_off3_inb L 3)).view.writes (Elt F) fo
          [⟨Rect.whole S16x2048, (tblAt L 48#32 (k0_off1_inb L 3)).view.read (Elt F) ft⟩]) : sProp 𝕄)
      = oLoc d ↦[oSet (1, cOf L, jOf L, 3)]{fullShare} Spec.repeated ft :=
  pts_landed3 d L 3 ft fo
theorem pts_landed4_3 (ft : Buf (Elt F) (tLoc d)) (fo : Buf (Elt F) (oLoc d)) :
    (mine d (cV L) (jV L) (outAt4 L 48#32 (k0_off4_inb L 3))
        ((outAt4 L 48#32 (k0_off4_inb L 3)).view.writes (Elt F) fo
          [⟨Rect.whole S16x2048, (tblAt L 48#32 (k0_off1_inb L 3)).view.read (Elt F) ft⟩]) : sProp 𝕄)
      = oLoc d ↦[oSet (2, cOf L, jOf L, 3)]{fullShare} Spec.repeated ft :=
  pts_landed4 d L 3 ft fo
theorem pts_landed5_3 (ft : Buf (Elt F) (tLoc d)) (fo : Buf (Elt F) (oLoc d)) :
    (mine d (cV L) (jV L) (outAt5 L 48#32 (k0_off5_inb L 3))
        ((outAt5 L 48#32 (k0_off5_inb L 3)).view.writes (Elt F) fo
          [⟨Rect.whole S16x2048, (tblAt L 48#32 (k0_off1_inb L 3)).view.read (Elt F) ft⟩]) : sProp 𝕄)
      = oLoc d ↦[oSet (3, cOf L, jOf L, 3)]{fullShare} Spec.repeated ft :=
  pts_landed5 d L 3 ft fo

omit m in
/-- A piece written with a payload equal to another is the piece written with that other. -/
theorem landed_of_eq {out : Memref sig .scVector .hbm S16x2048 .f32} (d : Dev nD) (c : Fin τ.nSC) (j : Fin τ.nSub)
    (fo : Buf (Elt F) (out.view.loc (V d c j))) (X Y : S16x2048.Idx → Elt F .f32) (R : sProp 𝕄) (e : X = Y)
    (h : (mine d c j out (out.view.writes (Elt F) fo [⟨Rect.whole S16x2048, Y⟩]) : sProp 𝕄) = R) :
    (mine d c j out (out.view.writes (Elt F) fo [⟨Rect.whole S16x2048, X⟩]) : sProp 𝕄) = R := by
  subst e; exact h

/-! ### The subcore's own semaphores and scratch -/

omit m in
theorem ownSems0_V :
    (ownSems0 (thr d L) : sProp 𝕄)
      = iprop(semVal (thr d L, SemLoc.dma semIn0) 0 ∗ semVal (thr d L, SemLoc.dma semIn1) 0
          ∗ semVal (thr d L, SemLoc.dma semOut0) 0 ∗ semVal (thr d L, SemLoc.dma semOut1) 0
          ∗ bigSep (((((ownCells (thr d L)).erase (thr d L, SemLoc.dma semIn0)).erase (thr d L, SemLoc.dma semIn1)).erase (thr d L, SemLoc.dma semOut0)).erase
              (thr d L, SemLoc.dma semOut1)) fun g => semVal g 0) := by
  unfold SparseCore.Cfg.ownSems0
  have hne : ∀ {a b : DmaSem sig}, a ≠ b → ((thr d L, SemLoc.dma a) : GSem nD τ sig) ≠ (thr d L, SemLoc.dma b) :=
    fun h e => h (SemLoc.dma.inj (Prod.mk.inj e).2)
  rw [SparseCore.bigSep_erase' ((mem_ownCells (g := (thr d L, SemLoc.dma semIn0))).mpr ⟨rfl, by
      show (SemLoc.dma semIn0 : SemLoc sig).isScoped .scVector = true; decide⟩),
    SparseCore.bigSep_erase' (Finset.mem_erase.mpr ⟨hne (by decide), (mem_ownCells (g := (thr d L, SemLoc.dma semIn1))).mpr ⟨rfl, by
      show (SemLoc.dma semIn1 : SemLoc sig).isScoped .scVector = true; decide⟩⟩),
    SparseCore.bigSep_erase' (Finset.mem_erase.mpr ⟨hne (by decide), Finset.mem_erase.mpr ⟨hne (by decide),
      (mem_ownCells (g := (thr d L, SemLoc.dma semOut0))).mpr ⟨rfl, by show (SemLoc.dma semOut0 : SemLoc sig).isScoped .scVector = true; decide⟩⟩⟩),
    SparseCore.bigSep_erase' (Finset.mem_erase.mpr ⟨hne (by decide), Finset.mem_erase.mpr ⟨hne (by decide), Finset.mem_erase.mpr ⟨hne (by decide),
      (mem_ownCells (g := (thr d L, SemLoc.dma semOut1))).mpr ⟨rfl, by show (SemLoc.dma semOut1 : SemLoc sig).isScoped .scVector = true; decide⟩⟩⟩⟩)]

omit m in
theorem ownBufs_V :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit m in
/-- A wait recorded at the kernel's own index keeps the record within what the launch allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ### The task -/

theorem tile_body [FloatOps F] [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp ∗ goRes m d (cOf L) (jOf L)
        ∗ scopedBufs (thr d L) ∗ scopedSems0 (thr d L) ∗ owes (thr d L) O W)
      ⊢ wp frame (wpE (defs₀ (F := F)) 𝒱₀ (thr d L) none) Set.univ
          (cc0_sc_broadcast L tblW (Memref.isWhole_whole _) outW (Memref.isWhole_whole _) bufW (Memref.isWhole_whole _) cc0_scratch1 cc0_scratch2)
          fun _ => iprop(tdRes m d (cOf L) (jOf L) ∗ scopedBufs (thr d L) ∗ scopedSems0 (thr d L)
            ∗ ∃ W', ⌜∀ p ∈ W', p ∈ W ∨ p.2 = none⌝ ∗ owes (thr d L) O W') := by
  simp only [cc0_sc_broadcast_eq_skeleton]; unfold cc0_sc_broadcast_skel
  rw [(K (F := F)).scopedBufs_V hF d (cV L) (jV L), SparseCore.Cfg.scopedSems0_V (Val := Elt F) d (cV L) (jV L), ownSems0_V, ownBufs_V]
  unfold goRes tdRes
  simp only [bigSep_fin4]
  iintro ⟨#Hlv, -, ⟨⟨T0, T1, T2, T3⟩, ⟨A0, B0, C0, D0⟩, ⟨A1, B1, C1, D1⟩, ⟨A2, B2, C2, D2⟩, ⟨A3, B3, C3, D3⟩⟩, ⟨⟨%fs, Hs⟩, Hbufs⟩, ⟨Hi0, Hi1, Ho0, Ho1, Hsems⟩, HO⟩
  ihave Hmw := ((K (F := F)).mayWaits_none (thr := thr d L) hO) $$ Hlv
  ihave HT0 := (Entails.of_eq (pts_tbl_0 (F := F) d L _).symm) $$ T0
  ihave HT1 := (Entails.of_eq (pts_tbl_1 (F := F) d L _).symm) $$ T1
  ihave HT2 := (Entails.of_eq (pts_tbl_2 (F := F) d L _).symm) $$ T2
  ihave HT3 := (Entails.of_eq (pts_tbl_3 (F := F) d L _).symm) $$ T3
  ihave HA0 := (Entails.of_eq (pts_out2_0 (F := F) d L _).symm) $$ A0
  ihave HB0 := (Entails.of_eq (pts_out3_0 (F := F) d L _).symm) $$ B0
  ihave HC0 := (Entails.of_eq (pts_out4_0 (F := F) d L _).symm) $$ C0
  ihave HD0 := (Entails.of_eq (pts_out5_0 (F := F) d L _).symm) $$ D0
  ihave HA1 := (Entails.of_eq (pts_out2_1 (F := F) d L _).symm) $$ A1
  ihave HB1 := (Entails.of_eq (pts_out3_1 (F := F) d L _).symm) $$ B1
  ihave HC1 := (Entails.of_eq (pts_out4_1 (F := F) d L _).symm) $$ C1
  ihave HD1 := (Entails.of_eq (pts_out5_1 (F := F) d L _).symm) $$ D1
  ihave HA2 := (Entails.of_eq (pts_out2_2 (F := F) d L _).symm) $$ A2
  ihave HB2 := (Entails.of_eq (pts_out3_2 (F := F) d L _).symm) $$ B2
  ihave HC2 := (Entails.of_eq (pts_out4_2 (F := F) d L _).symm) $$ C2
  ihave HD2 := (Entails.of_eq (pts_out5_2 (F := F) d L _).symm) $$ D2
  ihave HA3 := (Entails.of_eq (pts_out2_3 (F := F) d L _).symm) $$ A3
  ihave HB3 := (Entails.of_eq (pts_out3_3 (F := F) d L _).symm) $$ B3
  ihave HC3 := (Entails.of_eq (pts_out4_3 (F := F) d L _).symm) $$ C3
  ihave HD3 := (Entails.of_eq (pts_out5_3 (F := F) d L _).symm) $$ D3
  ihave HS := (scratch_split (F := F) d (cV L) (jV L) fs) $$ Hs
  icases HS with ⟨HS0, HS1⟩
  have _p0 : Transfers.BatchOf (thr d L) (SemLoc.dma (sig := sig) semOut0) 4 (windows := true) := trivial
  have _p1 : Transfers.BatchOf (thr d L) (SemLoc.dma (sig := sig) semOut1) 4 (windows := true) := trivial
  sl_exec
  sl_step
  have e0 : tile_body.sl.dma2 m d L fs = (tblAt L 0#32 (k0_off1_inb L 0)).view.read (Elt F) (m (tLoc d)) := by
    unfold tile_body.sl.dma2 tile_body.sl.dma0; exact payload_eq _ _ _
  have e1 : tile_body.sl.dma6 m d L fs = (tblAt L 16#32 (k0_off1_inb L 1)).view.read (Elt F) (m (tLoc d)) := by
    unfold tile_body.sl.dma6 tile_body.sl.dma0_1; exact payload_eq _ _ _
  have e2 : tile_body.sl.dma11 m d L fs = (tblAt L 32#32 (k0_off1_inb L 2)).view.read (Elt F) (m (tLoc d)) := by
    unfold tile_body.sl.dma11 tile_body.sl.dma0_2; exact payload_eq _ _ _
  have e3 : tile_body.sl.dma16 m d L fs = (tblAt L 48#32 (k0_off1_inb L 3)).view.read (Elt F) (m (tLoc d)) := by
    unfold tile_body.sl.dma16 tile_body.sl.dma0_3; exact payload_eq _ _ _
  ihave T0 := (Entails.of_eq (pts_tbl_0 (F := F) d L _)) $$ HT0
  ihave T1 := (Entails.of_eq (pts_tbl_1 (F := F) d L _)) $$ HT1
  ihave T2 := (Entails.of_eq (pts_tbl_2 (F := F) d L _)) $$ HT2
  ihave T3 := (Entails.of_eq (pts_tbl_3 (F := F) d L _)) $$ HT3
  ihave A0 := (Entails.of_eq (landed_of_eq (F := F) d (cV L) (jV L) _ _ _ _ e0 (pts_landed2_0 (F := F) d L (m (tLoc d)) (m (oLoc d))))) $$ HA0
  ihave B0 := (Entails.of_eq (landed_of_eq (F := F) d (cV L) (jV L) _ _ _ _ e0 (pts_landed3_0 (F := F) d L (m (tLoc d)) (m (oLoc d))))) $$ HB0
  ihave C0 := (Entails.of_eq (landed_of_eq (F := F) d (cV L) (jV L) _ _ _ _ e0 (pts_landed4_0 (F := F) d L (m (tLoc d)) (m (oLoc d))))) $$ HC0
  ihave D0 := (Entails.of_eq (landed_of_eq (F := F) d (cV L) (jV L) _ _ _ _ e0 (pts_landed5_0 (F := F) d L (m (tLoc d)) (m (oLoc d))))) $$ HD0
  ihave A1 := (Entails.of_eq (landed_of_eq (F := F) d (cV L) (jV L) _ _ _ _ e1 (pts_landed2_1 (F := F) d L (m (tLoc d)) (m (oLoc d))))) $$ HA1
  ihave B1 := (Entails.of_eq (landed_of_eq (F := F) d (cV L) (jV L) _ _ _ _ e1 (pts_landed3_1 (F := F) d L (m (tLoc d)) (m (oLoc d))))) $$ HB1
  ihave C1 := (Entails.of_eq (landed_of_eq (F := F) d (cV L) (jV L) _ _ _ _ e1 (pts_landed4_1 (F := F) d L (m (tLoc d)) (m (oLoc d))))) $$ HC1
  ihave D1 := (Entails.of_eq (landed_of_eq (F := F) d (cV L) (jV L) _ _ _ _ e1 (pts_landed5_1 (F := F) d L (m (tLoc d)) (m (oLoc d))))) $$ HD1
  ihave A2 := (Entails.of_eq (landed_of_eq (F := F) d (cV L) (jV L) _ _ _ _ e2 (pts_landed2_2 (F := F) d L (m (tLoc d)) (m (oLoc d))))) $$ HA2
  ihave B2 := (Entails.of_eq (landed_of_eq (F := F) d (cV L) (jV L) _ _ _ _ e2 (pts_landed3_2 (F := F) d L (m (tLoc d)) (m (oLoc d))))) $$ HB2
  ihave C2 := (Entails.of_eq (landed_of_eq (F := F) d (cV L) (jV L) _ _ _ _ e2 (pts_landed4_2 (F := F) d L (m (tLoc d)) (m (oLoc d))))) $$ HC2
  ihave D2 := (Entails.of_eq (landed_of_eq (F := F) d (cV L) (jV L) _ _ _ _ e2 (pts_landed5_2 (F := F) d L (m (tLoc d)) (m (oLoc d))))) $$ HD2
  ihave A3 := (Entails.of_eq (landed_of_eq (F := F) d (cV L) (jV L) _ _ _ _ e3 (pts_landed2_3 (F := F) d L (m (tLoc d)) (m (oLoc d))))) $$ HA3
  ihave B3 := (Entails.of_eq (landed_of_eq (F := F) d (cV L) (jV L) _ _ _ _ e3 (pts_landed3_3 (F := F) d L (m (tLoc d)) (m (oLoc d))))) $$ HB3
  ihave C3 := (Entails.of_eq (landed_of_eq (F := F) d (cV L) (jV L) _ _ _ _ e3 (pts_landed4_3 (F := F) d L (m (tLoc d)) (m (oLoc d))))) $$ HC3
  ihave D3 := (Entails.of_eq (landed_of_eq (F := F) d (cV L) (jV L) _ _ _ _ e3 (pts_landed5_3 (F := F) d L (m (tLoc d)) (m (oLoc d))))) $$ HD3
  ihave Hs := (scratch_join (F := F) d (cV L) (jV L) _ _) $$ [HS0 HS1]
  · isplitl [HS0] <;> iassumption
  isplitl [T0 T1 T2 T3 A0 B0 C0 D0 A1 B1 C1 D1 A2 B2 C2 D2 A3 B3 C3 D3]
  · isplitl [T0 T1 T2 T3]
    · isplitl [T0]; · iexact T0
      isplitl [T1]; · iexact T1
      isplitl [T2]; · iexact T2
      iexact T3
    isplitl [A0 B0 C0 D0]
    · isplitl [A0]; · iexact A0
      isplitl [B0]; · iexact B0
      isplitl [C0]; · iexact C0
      iexact D0
    isplitl [A1 B1 C1 D1]
    · isplitl [A1]; · iexact A1
      isplitl [B1]; · iexact B1
      isplitl [C1]; · iexact C1
      iexact D1
    isplitl [A2 B2 C2 D2]
    · isplitl [A2]; · iexact A2
      isplitl [B2]; · iexact B2
      isplitl [C2]; · iexact C2
      iexact D2
    isplitl [A3]; · iexact A3
    isplitl [B3]; · iexact B3
    isplitl [C3]; · iexact C3
    iexact D3
  isplitl [Hs Hbufs]
  · isplitl [Hs]; · iexact Hs
    iexact Hbufs
  isplitl [Hi0 Hi1 Ho0 Ho1 Hsems]
  · isplitl [Hi0]; · iexact Hi0
    isplitl [Hi1]; · iexact Hi1
    isplitl [Ho0]; · iexact Ho0
    isplitl [Ho1]; · iexact Ho1
    iexact Hsems
  iexists _; isplitr
  swap
  · iexact HO
  · ipureintro
    iterate 20 refine waits_insert _ ?_
    exact fun p hp => .inl hp

end Tile

end Cert.Proof.KB

end
-- ==== Proof.LaunchBits.lean ====
/-
  The whole kernel program: the TensorCore starts both SparseCores, each deals its sixteen vector subcores their chunks,
  the subcores run their tasks side by side, and the pieces come back. The table is dealt chunk by chunk — 2 cores × 16
  subcores × 4 chunks of 16 rows cover its 2048 rows once — and so is the result, 4 batch planes per chunk; every task
  returns its result pieces holding the table repeated, so the result array ends at out (b, n, d) = table (n, d) with
  both arguments unchanged.
-/
import proofs.«207500_g41051297415787_cont_8to1_b_1522_22_alg».proof.Proof.SetupBits
import proofs.«207500_g41051297415787_cont_8to1_b_1522_22_alg».proof.Proof.TileBits

noncomputable section

namespace Cert.Proof.KB

open Cert.Kernel Cert.Kernel.Gen
open Cert.Proof.Chunks
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The one call hands core c the chunks of its sixteen subcores, subcore j of it its own; they come back with the
    result pieces filled. The kernel's own protocol (local copies and their waits) asks nothing of the launch. -/
def P : (K (F := F)).Pay (nD := nD) (Val := Elt F) (Name := ℕ) (U := UU) where
  st := fun q d c => match q with | 0 => bigSep Finset.univ fun j : Fin 16 => goRes m d (Fin.cast nCore_zero c) j
  dn := fun q d c => match q with | 0 => bigSep Finset.univ fun j : Fin 16 => tdRes m d (Fin.cast nCore_zero c) j
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance goRes_storable (d : Dev nD) (c : Fin 2) (j : Fin 16) : BI.Storable (upEmb : UEmb _ 𝕄) (goRes m d c j) := by
  unfold goRes; infer_instance
instance tdRes_storable (d : Dev nD) (c : Fin 2) (j : Fin 16) : BI.Storable (upEmb : UEmb _ 𝕄) (tdRes m d c j) := by
  unfold tdRes; infer_instance

instance P_storable : (P (F := F) m).IsStorable where
  st q d c := match q with
    | 0 => (inferInstance : BI.Storable (upEmb : UEmb _ 𝕄) (bigSep Finset.univ fun j : Fin 16 => goRes m d (Fin.cast nCore_zero c) j))
  dn q d c := match q with
    | 0 => (inferInstance : BI.Storable (upEmb : UEmb _ 𝕄) (bigSep Finset.univ fun j : Fin 16 => tdRes m d (Fin.cast nCore_zero c) j))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_sc_broadcast (coordsV c s)
          tblW (Memref.isWhole_whole _) outW (Memref.isWhole_whole _) bufW (Memref.isWhole_whole _) cc0_scratch1 cc0_scratch2) ⟨⟩ c s := rfl

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] [∀ e, Nonempty (Elt F e)] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit m in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun j : Fin 16 => goRes m d (Fin.cast nCore_zero c) j) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun j : Fin 16 => tdRes m d (Fin.cast nCore_zero c) j))
  rw [bigSep_tasks (F := F) (fun j => goRes m d (Fin.cast nCore_zero c) j), bigSep_tasks (F := F) (fun j => tdRes m d (Fin.cast nCore_zero c) j)]
  iintro H; imodintro
  isplitl [H]; · iexact H
  iintro H; iexact H

/-! ## The launch element: the handshakes' rounds; nothing of the kernel's own -/

def u₀ : UU := (initOf (K (F := F)).hsCells (K (F := F)).hsToks, 1)

omit m in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays as their chunks -/

omit m in
/-- An array held whole is held piece by piece, for pairwise disjoint pieces that cover it. -/
theorem pointsTo_pieces {T : Type} [Fintype T] [DecidableEq T] (ℓ : Loc nD τ sig) (q : PosShare TreeShare) (f : Buf (Elt F) ℓ) (Ks : T → Finset (Idx ℓ))
    (hd : ∀ t ∈ (Finset.univ : Finset T), ∀ t' ∈ (Finset.univ : Finset T), t ≠ t' → Disjoint (Ks t) (Ks t')) (hc : ∀ i, ∃ t, i ∈ Ks t) :
    (ℓ ↦{q} f : sProp 𝕄) = bigSep Finset.univ fun t => ℓ ↦[Ks t]{q} f := by
  rw [← pointsTo_biUnion Finset.univ Ks hd]
  congr 1
  exact (Finset.eq_univ_iff_forall.mpr fun i => Finset.mem_biUnion.mpr (let ⟨t, ht⟩ := hc i; ⟨t, Finset.mem_univ _, ht⟩)).symm

omit m in
/-- The table whole is its 2 × 16 × 4 chunks. -/
theorem tbl_chunks (d : Dev nD) (f : Buf (Elt F) (tLoc d)) :
    (tLoc d ↦{fullShare} f : sProp 𝕄)
      = bigSep Finset.univ fun c : Fin 2 => bigSep Finset.univ fun j : Fin 16 => bigSep Finset.univ fun r : Fin 4 => tLoc d ↦[tSet (c, j, r)]{fullShare} f := by
  refine (pointsTo_pieces (tLoc d) fullShare f tSet tSet_disjoint tSet_covers).trans ?_
  rw [bigSep_univ_prod]
  refine bigSep_congr fun c _ => ?_
  rw [bigSep_univ_prod]

omit m in
/-- The result whole is its 2 × 16 × 4 × 4 pieces. -/
theorem out_chunks (d : Dev nD) (f : Buf (Elt F) (oLoc d)) :
    (oLoc d ↦{fullShare} f : sProp 𝕄)
      = bigSep Finset.univ fun c : Fin 2 => bigSep Finset.univ fun j : Fin 16 => bigSep Finset.univ fun r : Fin 4 => bigSep Finset.univ fun b : Fin 4 =>
          oLoc d ↦[oSet (b, c, j, r)]{fullShare} f := by
  refine (pointsTo_pieces (oLoc d) fullShare f oSetN oSetN_disjoint oSetN_covers).trans ?_
  rw [bigSep_univ_prod]
  refine bigSep_congr fun c _ => ?_
  rw [bigSep_univ_prod]
  refine bigSep_congr fun j _ => ?_
  rw [bigSep_univ_prod]
  rfl

/-- What the call takes for both cores: the table and the result whole. -/
theorem st0_eq (d : Dev nD) :
    (bigSep Finset.univ fun c : Fin ((K (F := F)).nCore 0) => (P m).st 0 d c) = iprop((tLoc d ↦{fullShare} m (tLoc d)) ∗ oLoc d ↦{fullShare} m (oLoc d)) := by
  show (bigSep Finset.univ fun c : Fin ((K (F := F)).nCore 0) => bigSep Finset.univ fun j : Fin 16 => goRes m d (Fin.cast nCore_zero c) j) = _
  rw [bigSep_cores (F := F) (fun c => bigSep Finset.univ fun j : Fin 16 => goRes m d c j), tbl_chunks, out_chunks]
  unfold goRes
  rw [← bigSep_sep']
  refine bigSep_congr fun c _ => ?_
  rw [← bigSep_sep']

/-- What it hands back: the table whole, and the result whole at the table repeated. -/
theorem dn0_eq (d : Dev nD) :
    (bigSep Finset.univ fun c : Fin ((K (F := F)).nCore 0) => (P m).dn 0 d c)
      = iprop((tLoc d ↦{fullShare} m (tLoc d)) ∗ oLoc d ↦{fullShare} Spec.repeated (m (tLoc d))) := by
  show (bigSep Finset.univ fun c : Fin ((K (F := F)).nCore 0) => bigSep Finset.univ fun j : Fin 16 => tdRes m d (Fin.cast nCore_zero c) j) = _
  rw [bigSep_cores (F := F) (fun c => bigSep Finset.univ fun j : Fin 16 => tdRes m d c j), tbl_chunks, out_chunks]
  unfold tdRes
  rw [← bigSep_sep']
  refine bigSep_congr fun c _ => ?_
  rw [← bigSep_sep']

/-! ## @main on the TensorCore -/

omit m in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the index array and the table as launched, the result at the table repeated. -/
abbrev FIN (d : Dev nD) : sProp 𝕄 :=
  iprop((xLoc d ↦{fullShare} m (xLoc d)) ∗ (tLoc d ↦{fullShare} m (tLoc d)) ∗ oLoc d ↦{fullShare} Spec.repeated (m (tLoc d)))

/-- @main on device d's TensorCore: the one call, from the table and the result whole. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Ht Ho Hx]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  imodintro
  isplitl [Hst]; · iexact Hst
  isplitl [Hx]; · iexact Hx
  isplitl [Ht]; · iexact Ht
  iexact Ho

def fq (d : Dev nD) (s' : Phys nD τ sig (Elt F)) : Prop :=
  s'.mem.mem (oLoc d) = Spec.repeated (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Spec.repeated (m (tLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Spec.repeated (m (tLoc c)) ∧ r.2.mem (xLoc c) = m (xLoc c) ∧ r.2.mem (tLoc c) = m (tLoc c)

/-- Every weakly fair execution of the device's threads terminates, nothing faulting, with the result array at the
    table repeated and both arguments as launched. -/
theorem run_main [FloatOps F] [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.SetupIdeal.lean ====
/-
  The names the proofs about the kernel program share: the launch configuration, the ghost state (the launch
  handshakes' rounds beside the transfers' counters), the three arrays and the scratch as a vector subcore addresses
  them, and the pieces a subcore moves — chunk r of its 64 table rows (16 rows), the same rows of each batch entry of
  the result, the two 16-row slots of its scratch, and its four DMA semaphores (one per slot for the copies in, one per
  slot for the copies out).
-/
import proofs.«207500_g41051297415787_cont_8to1_b_1522_22_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«207500_g41051297415787_cont_8to1_b_1522_22_alg».proof.Proof.Gen.KernelIdeal
import proofs.«207500_g41051297415787_cont_8to1_b_1522_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev tblW : Memref sig .scVector .hbm S2048x2048 .f32 := Memref.whole main_arg1_scv
abbrev outW : Memref sig .scVector .hbm S4x2048x2048 .f32 := Memref.whole main_v0_scv
abbrev bufW : Memref sig .scVector .vmem S2x16x2048 .f32 := Memref.whole cc0_scratch0

abbrev tblAt (L : grid0.Coords) (w : BitVec 32) (h : ∀ a, (k0_off1 L w) a + S16x2048.size a ≤ S2048x2048.size a) : Memref sig .scVector .hbm S16x2048 .f32 :=
  tblW.slice (Rect.unit (s := S2048x2048) (k0_off1 L w) S16x2048.size h) (fun _ => rfl)
abbrev outAt2 (L : grid0.Coords) (w : BitVec 32) (h : ∀ a, (k0_off2 L w) a + S1x16x2048.size a ≤ S4x2048x2048.size a) : Memref sig .scVector .hbm S16x2048 .f32 :=
  (outW.slice (Rect.unit (s := S4x2048x2048) (k0_off2 L w) S1x16x2048.size h) (fun _ => rfl)).squeeze S16x2048 squeezes_S1x16x2048_S16x2048
abbrev outAt3 (L : grid0.Coords) (w : BitVec 32) (h : ∀ a, (k0_off3 L w) a + S1x16x2048.size a ≤ S4x2048x2048.size a) : Memref sig .scVector .hbm S16x2048 .f32 :=
  (outW.slice (Rect.unit (s := S4x2048x2048) (k0_off3 L w) S1x16x2048.size h) (fun _ => rfl)).squeeze S16x2048 squeezes_S1x16x2048_S16x2048
abbrev outAt4 (L : grid0.Coords) (w : BitVec 32) (h : ∀ a, (k0_off4 L w) a + S1x16x2048.size a ≤ S4x2048x2048.size a) : Memref sig .scVector .hbm S16x2048 .f32 :=
  (outW.slice (Rect.unit (s := S4x2048x2048) (k0_off4 L w) S1x16x2048.size h) (fun _ => rfl)).squeeze S16x2048 squeezes_S1x16x2048_S16x2048
abbrev outAt5 (L : grid0.Coords) (w : BitVec 32) (h : ∀ a, (k0_off5 L w) a + S1x16x2048.size a ≤ S4x2048x2048.size a) : Memref sig .scVector .hbm S16x2048 .f32 :=
  (outW.slice (Rect.unit (s := S4x2048x2048) (k0_off5 L w) S1x16x2048.size h) (fun _ => rfl)).squeeze S16x2048 squeezes_S1x16x2048_S16x2048

abbrev slot0 : Memref sig .scVector .vmem S16x2048 .f32 :=
  (bufW.slice (Rect.unit (s := S2x16x2048) ![0, 0, 0] S1x16x2048.size inb_S2x16x2048_S1x16x2048_0_0_0) (fun _ => rfl)).squeeze S16x2048 squeezes_S1x16x2048_S16x2048
abbrev slot1 : Memref sig .scVector .vmem S16x2048 .f32 :=
  (bufW.slice (Rect.unit (s := S2x16x2048) ![1, 0, 0] S1x16x2048.size inb_S2x16x2048_S1x16x2048_1_0_0) (fun _ => rfl)).squeeze S16x2048 squeezes_S1x16x2048_S16x2048

abbrev semIn0 : DmaSem sig := ((cc0_scratch1.slice (Rect.unit (s := S2) ![0] S1.size inb_S2_S1_0)).squeeze S_ squeezes_S1_S_).sem
abbrev semIn1 : DmaSem sig := ((cc0_scratch1.slice (Rect.unit (s := S2) ![1] S1.size inb_S2_S1_1)).squeeze S_ squeezes_S1_S_).sem
abbrev semOut0 : DmaSem sig := ((cc0_scratch2.slice (Rect.unit (s := S2) ![0] S1.size inb_S2_S1_0)).squeeze S_ squeezes_S1_S_).sem
abbrev semOut1 : DmaSem sig := ((cc0_scratch2.slice (Rect.unit (s := S2) ![1] S1.size inb_S2_S1_1)).squeeze S_ squeezes_S1_S_).sem

/-- A memref's own elements held at the full share by a vector subcore. -/
abbrev mine {sp : Space} {s : Shape} (d : Dev nD) (c : Fin τ.nSC) (j : Fin τ.nSub) (M : Memref sig .scVector sp s .f32) (f : Buf (Elt F) (M.view.loc (V d c j))) : sProp 𝕄 :=
  M.view.loc (V d c j) ↦[M.view.set]{fullShare} f

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.KI

end
-- ==== Proof.LandIdeal.lean ====
/-
  What a copy out lands, and where the pieces lie. Chunk r of subcore (c, j) is rows 128·j + 64·c + 16·r … + 15: the
  table piece a copy in reads is the 16 × 2048 rectangle at those rows, and the result piece a copy out writes for batch
  entry b is that rectangle in plane b. A copy out that carries what the table holds on the chunk leaves, on its result
  piece, out (b, n, d) = table (n, d). The scratch is its two slots.
-/
import proofs.«207500_g41051297415787_cont_8to1_b_1522_22_alg».proof.Proof.SetupIdeal
import proofs.«207500_g41051297415787_cont_8to1_b_1522_22_alg».proof.Proof.Chunks
import proofs.«207500_g41051297415787_cont_8to1_b_1522_22_alg».proof.Proof.Spec
import Idealize.ShloMosaic.Lib.Writes
import Idealize.ShloMosaic.Lib.ValueLayout
import Idealize.ShloMosaic.Lib.Exec.Geometry

noncomputable section

namespace Cert.Proof.KI

open Cert.KernelIdeal Cert.KernelIdeal.Gen
open Cert.Proof.Chunks
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A subcore's grid coordinates as the chunk coordinates (core, subcore). -/
abbrev cOf (L : grid0.Coords) : Fin 2 := L 0
abbrev jOf (L : grid0.Coords) : Fin 16 := L 1

/-- The offset word of chunk r. -/
abbrev wOf (r : Fin 4) : BitVec 32 := BitVec.ofNat 32 (16 * r.val)

variable (d : Dev nD) (L : grid0.Coords) (r : Fin 4)

/-- Unit-stride rectangles of one size at equal offsets are one rectangle. -/
theorem rect_unit_congr {s : Shape} {o o' z : Fin s.rank → Nat} (h : ∀ a, o a + z a ≤ s.size a)
    (h' : ∀ a, o' a + z a ≤ s.size a) (e : o = o') : Rect.unit o z h = Rect.unit o' z h' := by
  subst e; rfl

theorem tblRect_eq :
    Rect.unit (s := S2048x2048) (k0_off1 L (wOf r)) S16x2048.size (k0_off1_inb L r) = tRect (cOf L) (jOf L) r :=
  rect_unit_congr _ _ (Gen.k0_off1_eq L r)

theorem set_tblAt : (tblAt L (wOf r) (k0_off1_inb L r)).view.set = tSet (cOf L, jOf L, r) := by
  show ((View.whole main_arg1_scv).slice (Rect.unit (s := S2048x2048) (k0_off1 L (wOf r)) S16x2048.size (k0_off1_inb L r))).set = _
  rw [View.set_slice_whole, tblRect_eq]
  rfl

theorem pts_tbl (ft : Buf (Elt F) (tLoc d)) :
    (mine d (cV L) (jV L) (tblAt L (wOf r) (k0_off1_inb L r)) ft : sProp 𝕄) = tLoc d ↦[tSet (cOf L, jOf L, r)]{fullShare} ft := by
  show (tLoc d ↦[(tblAt L (wOf r) (k0_off1_inb L r)).view.set]{fullShare} ft : sProp 𝕄) = _
  rw [set_tblAt]

theorem outRect2_eq :
    Rect.unit (s := S4x2048x2048) (k0_off2 L (wOf r)) S1x16x2048.size (k0_off2_inb L r) = oRect 0 (cOf L) (jOf L) r :=
  rect_unit_congr _ _ (Gen.k0_off2_eq L r)

theorem set_outAt2 : (outAt2 L (wOf r) (k0_off2_inb L r)).view.set = oSet (0, cOf L, jOf L, r) := by
  show (((View.whole main_v0_scv).slice (Rect.unit (s := S4x2048x2048) (k0_off2 L (wOf r)) S1x16x2048.size (k0_off2_inb L r))).reshape
    S16x2048 squeezes_S1x16x2048_S16x2048.numel_eq).set = _
  rw [View.set_reshape, View.set_slice_whole]
  exact congrArg (fun R : Rect SO => R.set) (outRect2_eq L r)

theorem pts_out2 (fo : Buf (Elt F) (oLoc d)) :
    (mine d (cV L) (jV L) (outAt2 L (wOf r) (k0_off2_inb L r)) fo : sProp 𝕄) = oLoc d ↦[oSet (0, cOf L, jOf L, r)]{fullShare} fo := by
  show (oLoc d ↦[(outAt2 L (wOf r) (k0_off2_inb L r)).view.set]{fullShare} fo : sProp 𝕄) = _
  rw [set_outAt2]

theorem outRect3_eq :
    Rect.unit (s := S4x2048x2048) (k0_off3 L (wOf r)) S1x16x2048.size (k0_off3_inb L r) = oRect 1 (cOf L) (jOf L) r :=
  rect_unit_congr _ _ (Gen.k0_off3_eq L r)

theorem set_outAt3 : (outAt3 L (wOf r) (k0_off3_inb L r)).view.set = oSet (1, cOf L, jOf L, r) := by
  show (((View.whole main_v0_scv).slice (Rect.unit (s := S4x2048x2048) (k0_off3 L (wOf r)) S1x16x2048.size (k0_off3_inb L r))).reshape
    S16x2048 squeezes_S1x16x2048_S16x2048.numel_eq).set = _
  rw [View.set_reshape, View.set_slice_whole]
  exact congrArg (fun R : Rect SO => R.set) (outRect3_eq L r)

theorem pts_out3 (fo : Buf (Elt F) (oLoc d)) :
    (mine d (cV L) (jV L) (outAt3 L (wOf r) (k0_off3_inb L r)) fo : sProp 𝕄) = oLoc d ↦[oSet (1, cOf L, jOf L, r)]{fullShare} fo := by
  show (oLoc d ↦[(outAt3 L (wOf r) (k0_off3_inb L r)).view.set]{fullShare} fo : sProp 𝕄) = _
  rw [set_outAt3]

theorem outRect4_eq :
    Rect.unit (s := S4x2048x2048) (k0_off4 L (wOf r)) S1x16x2048.size (k0_off4_inb L r) = oRect 2 (cOf L) (jOf L) r :=
  rect_unit_congr _ _ (Gen.k0_off4_eq L r)

theorem set_outAt4 : (outAt4 L (wOf r) (k0_off4_inb L r)).view.set = oSet (2, cOf L, jOf L, r) := by
  show (((View.whole main_v0_scv).slice (Rect.unit (s := S4x2048x2048) (k0_off4 L (wOf r)) S1x16x2048.size (k0_off4_inb L r))).reshape
    S16x2048 squeezes_S1x16x2048_S16x2048.numel_eq).set = _
  rw [View.set_reshape, View.set_slice_whole]
  exact congrArg (fun R : Rect SO => R.set) (outRect4_eq L r)

theorem pts_out4 (fo : Buf (Elt F) (oLoc d)) :
    (mine d (cV L) (jV L) (outAt4 L (wOf r) (k0_off4_inb L r)) fo : sProp 𝕄) = oLoc d ↦[oSet (2, cOf L, jOf L, r)]{fullShare} fo := by
  show (oLoc d ↦[(outAt4 L (wOf r) (k0_off4_inb L r)).view.set]{fullShare} fo : sProp 𝕄) = _
  rw [set_outAt4]

theorem outRect5_eq :
    Rect.unit (s := S4x2048x2048) (k0_off5 L (wOf r)) S1x16x2048.size (k0_off5_inb L r) = oRect 3 (cOf L) (jOf L) r :=
  rect_unit_congr _ _ (Gen.k0_off5_eq L r)

theorem set_outAt5 : (outAt5 L (wOf r) (k0_off5_inb L r)).view.set = oSet (3, cOf L, jOf L, r) := by
  show (((View.whole main_v0_scv).slice (Rect.unit (s := S4x2048x2048) (k0_off5 L (wOf r)) S1x16x2048.size (k0_off5_inb L r))).reshape
    S16x2048 squeezes_S1x16x2048_S16x2048.numel_eq).set = _
  rw [View.set_reshape, View.set_slice_whole]
  exact congrArg (fun R : Rect SO => R.set) (outRect5_eq L r)

theorem pts_out5 (fo : Buf (Elt F) (oLoc d)) :
    (mine d (cV L) (jV L) (outAt5 L (wOf r) (k0_off5_inb L r)) fo : sProp 𝕄) = oLoc d ↦[oSet (3, cOf L, jOf L, r)]{fullShare} fo := by
  show (oLoc d ↦[(outAt5 L (wOf r) (k0_off5_inb L r)).view.set]{fullShare} fo : sProp 𝕄) = _
  rw [set_outAt5]

/-- The result piece at offsets o3, read as 16 × 2048, and the table piece at offsets o2, as views of their arrays. -/
abbrev outV (o3 : Fin 3 → Nat) (h3 : ∀ a, o3 a + S1x16x2048.size a ≤ S4x2048x2048.size a) : View sig .scVector .hbm S16x2048 .f32 :=
  ((View.whole main_v0_scv).slice (Rect.unit (s := S4x2048x2048) o3 S1x16x2048.size h3)).reshape S16x2048
    squeezes_S1x16x2048_S16x2048.numel_eq
abbrev tblV (o2 : Fin 2 → Nat) (h2 : ∀ a, o2 a + S16x2048.size a ≤ S2048x2048.size a) : View sig .scVector .hbm S16x2048 .f32 :=
  (View.whole main_arg1_scv).slice (Rect.unit (s := S2048x2048) o2 S16x2048.size h2)

open Idealize.ShloMosaic.ValueIdx in
/-- The table piece at offsets (ρ, κ) places a 16 × 2048 index where the result piece at offsets (b, ρ, κ), read as
    16 × 2048, places it, less the batch coordinate. -/
theorem emb_out_tbl (o3 : Fin 3 → Nat) (o2 : Fin 2 → Nat)
    (h3 : ∀ a, o3 a + S1x16x2048.size a ≤ S4x2048x2048.size a) (h2 : ∀ a, o2 a + S16x2048.size a ≤ S2048x2048.size a)
    (e1 : o3 1 = o2 0) (e2 : o3 2 = o2 1) (y : S16x2048.Idx) :
    (ix2 ((outV o3 h3).emb y 1) ((outV o3 h3).emb y 2) : ST.Idx) = (tblV o2 h2).emb y := by
  obtain ⟨x0, x1, rfl⟩ : ∃ x0 x1, y = ix2 x0 x1 := ⟨y 0, y 1, eq_ix2 y⟩
  have hr : Shape.reshapeEquiv (s := S1x16x2048) (s' := S16x2048) squeezes_S1x16x2048_S16x2048.numel_eq (ix2 x0 x1)
      = ix3 (⟨0, Nat.one_pos⟩ : Fin 1) x0 x1 := reshapeEquiv_ix2_1ab _ x0 x1
  funext a
  apply Fin.ext
  match a with
  | ⟨0, _⟩ =>
    show o3 1 + 1 * ((Shape.reshapeEquiv (s := S1x16x2048) (s' := S16x2048) squeezes_S1x16x2048_S16x2048.numel_eq (ix2 x0 x1)) 1).val
      = o2 0 + 1 * x0.val
    rw [hr, e1]
  | ⟨1, _⟩ =>
    show o3 2 + 1 * ((Shape.reshapeEquiv (s := S1x16x2048) (s' := S16x2048) squeezes_S1x16x2048_S16x2048.numel_eq (ix2 x0 x1)) 2).val
      = o2 1 + 1 * x1.val
    rw [hr, e2]

/-- What the result piece at offsets (b, ρ, κ) holds once the table piece at offsets (ρ, κ) is written over the whole of
    it: at every one of its elements, the table repeated. -/
theorem pts_landed_gen (o3 : Fin 3 → Nat) (o2 : Fin 2 → Nat)
    (h3 : ∀ a, o3 a + S1x16x2048.size a ≤ S4x2048x2048.size a) (h2 : ∀ a, o2 a + S16x2048.size a ≤ S2048x2048.size a)
    (e1 : o3 1 = o2 0) (e2 : o3 2 = o2 1) (ft : Buf (Elt F) (tLoc d)) (fo : Buf (Elt F) (oLoc d)) :
    (oLoc d ↦[(outV o3 h3).set]{fullShare}
        (outV o3 h3).writes (Elt F) fo [⟨Rect.whole S16x2048, (tblV o2 h2).read (Elt F) ft⟩] : sProp 𝕄)
      = oLoc d ↦[(outV o3 h3).set]{fullShare} Spec.repeated ft := by
  refine pointsTo_congr fun i hi => ?_
  obtain ⟨y, -, rfl⟩ := Finset.mem_map.mp hi
  have h1 := congrFun (View.read_writes_whole (outV o3 h3) fo ((tblV o2 h2).read (Elt F) ft)) y
  rw [View.read_apply, View.read_apply, cast_eq, cast_eq] at h1
  rw [h1, Spec.repeated_apply, emb_out_tbl o3 o2 h3 h2 e1 e2 y]

/-- What a copy out of chunk r's table rows leaves on the result piece of batch entry 0: the table repeated. -/
theorem pts_landed2 (ft : Buf (Elt F) (tLoc d)) (fo : Buf (Elt F) (oLoc d)) :
    (mine d (cV L) (jV L) (outAt2 L (wOf r) (k0_off2_inb L r))
        ((outAt2 L (wOf r) (k0_off2_inb L r)).view.writes (Elt F) fo
          [⟨Rect.whole S16x2048, (tblAt L (wOf r) (k0_off1_inb L r)).view.read (Elt F) ft⟩]) : sProp 𝕄)
      = oLoc d ↦[oSet (0, cOf L, jOf L, r)]{fullShare} Spec.repeated ft := by
  exact (pts_landed_gen d (k0_off2 L (wOf r)) (k0_off1 L (wOf r)) (k0_off2_inb L r) (k0_off1_inb L r)
    ((congrFun (Gen.k0_off2_eq L r) 1).trans (congrFun (Gen.k0_off1_eq L r) 0).symm)
    ((congrFun (Gen.k0_off2_eq L r) 2).trans (congrFun (Gen.k0_off1_eq L r) 1).symm) ft fo).trans
    (pts_out2 d L r (Spec.repeated ft))
theorem pts_landed3 (ft : Buf (Elt F) (tLoc d)) (fo : Buf (Elt F) (oLoc d)) :
    (mine d (cV L) (jV L) (outAt3 L (wOf r) (k0_off3_inb L r))
        ((outAt3 L (wOf r) (k0_off3_inb L r)).view.writes (Elt F) fo
          [⟨Rect.whole S16x2048, (tblAt L (wOf r) (k0_off1_inb L r)).view.read (Elt F) ft⟩]) : sProp 𝕄)
      = oLoc d ↦[oSet (1, cOf L, jOf L, r)]{fullShare} Spec.repeated ft := by
  exact (pts_landed_gen d (k0_off3 L (wOf r)) (k0_off1 L (wOf r)) (k0_off3_inb L r) (k0_off1_inb L r)
    ((congrFun (Gen.k0_off3_eq L r) 1).trans (congrFun (Gen.k0_off1_eq L r) 0).symm)
    ((congrFun (Gen.k0_off3_eq L r) 2).trans (congrFun (Gen.k0_off1_eq L r) 1).symm) ft fo).trans
    (pts_out3 d L r (Spec.repeated ft))
theorem pts_landed4 (ft : Buf (Elt F) (tLoc d)) (fo : Buf (Elt F) (oLoc d)) :
    (mine d (cV L) (jV L) (outAt4 L (wOf r) (k0_off4_inb L r))
        ((outAt4 L (wOf r) (k0_off4_inb L r)).view.writes (Elt F) fo
          [⟨Rect.whole S16x2048, (tblAt L (wOf r) (k0_off1_inb L r)).view.read (Elt F) ft⟩]) : sProp 𝕄)
      = oLoc d ↦[oSet (2, cOf L, jOf L, r)]{fullShare} Spec.repeated ft := by
  exact (pts_landed_gen d (k0_off4 L (wOf r)) (k0_off1 L (wOf r)) (k0_off4_inb L r) (k0_off1_inb L r)
    ((congrFun (Gen.k0_off4_eq L r) 1).trans (congrFun (Gen.k0_off1_eq L r) 0).symm)
    ((congrFun (Gen.k0_off4_eq L r) 2).trans (congrFun (Gen.k0_off1_eq L r) 1).symm) ft fo).trans
    (pts_out4 d L r (Spec.repeated ft))
theorem pts_landed5 (ft : Buf (Elt F) (tLoc d)) (fo : Buf (Elt F) (oLoc d)) :
    (mine d (cV L) (jV L) (outAt5 L (wOf r) (k0_off5_inb L r))
        ((outAt5 L (wOf r) (k0_off5_inb L r)).view.writes (Elt F) fo
          [⟨Rect.whole S16x2048, (tblAt L (wOf r) (k0_off1_inb L r)).view.read (Elt F) ft⟩]) : sProp 𝕄)
      = oLoc d ↦[oSet (3, cOf L, jOf L, r)]{fullShare} Spec.repeated ft := by
  exact (pts_landed_gen d (k0_off5 L (wOf r)) (k0_off1 L (wOf r)) (k0_off5_inb L r) (k0_off1_inb L r)
    ((congrFun (Gen.k0_off5_eq L r) 1).trans (congrFun (Gen.k0_off1_eq L r) 0).symm)
    ((congrFun (Gen.k0_off5_eq L r) 2).trans (congrFun (Gen.k0_off1_eq L r) 1).symm) ft fo).trans
    (pts_out5 d L r (Spec.repeated ft))

/-- A whole piece written last is what the view reads back, whatever was written before. -/
theorem read_writes_whole_cons {sg : RefSig} {κ : Kind} {sp : Space} {s : Shape} {e : EltTy} {Val : EltTy → Type}
    (v : View sg κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- The two slots' rectangles in the scratch: planes 0 and 1 of its leading axis. -/
abbrev slotRect0 : Rect S2x16x2048 := Rect.unit (s := S2x16x2048) ![0, 0, 0] S1x16x2048.size inb_S2x16x2048_S1x16x2048_0_0_0
abbrev slotRect1 : Rect S2x16x2048 := Rect.unit (s := S2x16x2048) ![1, 0, 0] S1x16x2048.size inb_S2x16x2048_S1x16x2048_1_0_0

theorem set_slot0 : (slot0 : Memref sig .scVector .vmem S16x2048 .f32).view.set = slotRect0.set := by
  show (((View.whole cc0_scratch0).slice slotRect0).reshape S16x2048 squeezes_S1x16x2048_S16x2048.numel_eq).set = _
  rw [View.set_reshape, View.set_slice_whole]
theorem set_slot1 : (slot1 : Memref sig .scVector .vmem S16x2048 .f32).view.set = slotRect1.set := by
  show (((View.whole cc0_scratch0).slice slotRect1).reshape S16x2048 squeezes_S1x16x2048_S16x2048.numel_eq).set = _
  rw [View.set_reshape, View.set_slice_whole]

/-- The planes are apart on the leading axis. -/
theorem slots_disjoint : Disjoint slotRect0.set slotRect1.set :=
  Rect.unit_disjoint (0 : Fin 3) (Or.inl (Nat.le_refl 1))

/-- The leading axis has extent two: every element is in plane 0 or plane 1. -/
theorem slots_cover : slotRect0.set ∪ slotRect1.set = Finset.univ := by
  ext i
  simp only [Finset.mem_union, Rect.mem_set_unit, Finset.mem_univ, iff_true]
  have h0 : (i 0).val < 2 := (i 0).isLt
  have h1 : (i 1).val < 16 := (i 1).isLt
  have h2 : (i 2).val < 2048 := (i 2).isLt
  by_cases h : (i 0).val = 0
  · left; intro a
    match a with
    | ⟨0, _⟩ => show 0 ≤ (i 0).val ∧ (i 0).val < 0 + 1; omega
    | ⟨1, _⟩ => show 0 ≤ (i 1).val ∧ (i 1).val < 0 + 16; omega
    | ⟨2, _⟩ => show 0 ≤ (i 2).val ∧ (i 2).val < 0 + 2048; omega
  · right; intro a
    match a with
    | ⟨0, _⟩ => show 1 ≤ (i 0).val ∧ (i 0).val < 1 + 1; omega
    | ⟨1, _⟩ => show 0 ≤ (i 1).val ∧ (i 1).val < 0 + 16; omega
    | ⟨2, _⟩ => show 0 ≤ (i 2).val ∧ (i 2).val < 0 + 2048; omega

/-- The scratch is its two slots. -/
theorem scratch_split (c : Fin τ.nSC) (j : Fin τ.nSub) (f : Buf (Elt F) ((V d c j).loc cc0_scratch0)) :
    ((V d c j).loc cc0_scratch0 ↦{fullShare} f : sProp 𝕄) ⊢ iprop(mine d c j slot0 f ∗ mine d c j slot1 f) := by
  show ((V d c j).loc cc0_scratch0 ↦[Finset.univ]{fullShare} f : sProp 𝕄)
    ⊢ iprop(((V d c j).loc cc0_scratch0 ↦[(slot0 : Memref sig .scVector .vmem S16x2048 .f32).view.set]{fullShare} f)
        ∗ ((V d c j).loc cc0_scratch0 ↦[(slot1 : Memref sig .scVector .vmem S16x2048 .f32).view.set]{fullShare} f))
  rw [set_slot0, set_slot1, ← slots_cover]
  exact (pointsTo_union slots_disjoint).1
theorem scratch_join (c : Fin τ.nSC) (j : Fin τ.nSub) (f0 : Buf (Elt F) ((V d c j).loc cc0_scratch0)) (f1 : Buf (Elt F) ((V d c j).loc cc0_scratch0)) :
    iprop(mine d c j slot0 f0 ∗ mine d c j slot1 f1) ⊢ (iprop(∃ f, (V d c j).loc cc0_scratch0 ↦{fullShare} f) : sProp 𝕄) := by
  show iprop(((V d c j).loc cc0_scratch0 ↦[(slot0 : Memref sig .scVector .vmem S16x2048 .f32).view.set]{fullShare} f0)
        ∗ ((V d c j).loc cc0_scratch0 ↦[(slot1 : Memref sig .scVector .vmem S16x2048 .f32).view.set]{fullShare} f1))
    ⊢ (iprop(∃ f, (V d c j).loc cc0_scratch0 ↦[Finset.univ]{fullShare} f) : sProp 𝕄)
  rw [set_slot0, set_slot1, ← slots_cover]
  exact exists_intro_trans _ (pointsTo_join slots_disjoint)

end Cert.Proof.KI

end
-- ==== Proof.TileIdeal.lean ====
/-
  One vector subcore's task. Subcore (c, j) fetches each of its four 16-row table chunks into a scratch slot (chunks 0
  and 2 into slot 0, chunks 1 and 3 into slot 1; one copy in flight per slot, each on the slot's own semaphore) and fans
  the slot out to the same rows of the four batch planes of the result (four copies on the slot's outgoing semaphore,
  all reading the slot, all waited for before the slot is fetched into again). Every copy out carries what the table
  holds on the chunk, so the task leaves on each of its sixteen result pieces out (b, n, d) = table (n, d), and leaves
  its table chunks as they were.
-/
import proofs.«207500_g41051297415787_cont_8to1_b_1522_22_alg».proof.Proof.SetupIdeal
import proofs.«207500_g41051297415787_cont_8to1_b_1522_22_alg».proof.Proof.LandIdeal

noncomputable section

namespace Cert.Proof.KI

open Cert.KernelIdeal Cert.KernelIdeal.Gen
open Cert.Proof.Chunks
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- A conjunction over four indices, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- What subcore (c, j) is handed: its four table chunks, and its sixteen result pieces at the launch contents. -/
def goRes (d : Dev nD) (c : Fin 2) (j : Fin 16) : sProp 𝕄 :=
  iprop((bigSep Finset.univ fun r : Fin 4 => tLoc d ↦[tSet (c, j, r)]{fullShare} m (tLoc d))
    ∗ bigSep Finset.univ fun r : Fin 4 => bigSep Finset.univ fun b : Fin 4 => oLoc d ↦[oSet (b, c, j, r)]{fullShare} m (oLoc d))

/-- What it hands back: the table chunks unchanged, every result piece holding the table repeated. -/
def tdRes (d : Dev nD) (c : Fin 2) (j : Fin 16) : sProp 𝕄 :=
  iprop((bigSep Finset.univ fun r : Fin 4 => tLoc d ↦[tSet (c, j, r)]{fullShare} m (tLoc d))
    ∗ bigSep Finset.univ fun r : Fin 4 => bigSep Finset.univ fun b : Fin 4 => oLoc d ↦[oSet (b, c, j, r)]{fullShare} Spec.repeated (m (tLoc d)))

section Tile

variable (d : Dev nD) (L : grid0.Coords)

/-! ### The pieces at the four literal offsets, as the body spells them -/

theorem pts_tbl_0 (ft : Buf (Elt F) (tLoc d)) :
    (mine d (cV L) (jV L) (tblAt L 0#32 (k0_off1_inb L 0)) ft : sProp 𝕄) = tLoc d ↦[tSet (cOf L, jOf L, 0)]{fullShare} ft :=
  pts_tbl d L 0 ft
theorem pts_tbl_1 (ft : Buf (Elt F) (tLoc d)) :
    (mine d (cV L) (jV L) (tblAt L 16#32 (k0_off1_inb L 1)) ft : sProp 𝕄) = tLoc d ↦[tSet (cOf L, jOf L, 1)]{fullShare} ft :=
  pts_tbl d L 1 ft
theorem pts_tbl_2 (ft : Buf (Elt F) (tLoc d)) :
    (mine d (cV L) (jV L) (tblAt L 32#32 (k0_off1_inb L 2)) ft : sProp 𝕄) = tLoc d ↦[tSet (cOf L, jOf L, 2)]{fullShare} ft :=
  pts_tbl d L 2 ft
theorem pts_tbl_3 (ft : Buf (Elt F) (tLoc d)) :
    (mine d (cV L) (jV L) (tblAt L 48#32 (k0_off1_inb L 3)) ft : sProp 𝕄) = tLoc d ↦[tSet (cOf L, jOf L, 3)]{fullShare} ft :=
  pts_tbl d L 3 ft
theorem pts_out2_0 (fo : Buf (Elt F) (oLoc d)) :
    (mine d (cV L) (jV L) (outAt2 L 0#32 (k0_off2_inb L 0)) fo : sProp 𝕄) = oLoc d ↦[oSet (0, cOf L, jOf L, 0)]{fullShare} fo :=
  pts_out2 d L 0 fo
theorem pts_out3_0 (fo : Buf (Elt F) (oLoc d)) :
    (mine d (cV L) (jV L) (outAt3 L 0#32 (k0_off3_inb L 0)) fo : sProp 𝕄) = oLoc d ↦[oSet (1, cOf L, jOf L, 0)]{fullShare} fo :=
  pts_out3 d L 0 fo
theorem pts_out4_0 (fo : Buf (Elt F) (oLoc d)) :
    (mine d (cV L) (jV L) (outAt4 L 0#32 (k0_off4_inb L 0)) fo : sProp 𝕄) = oLoc d ↦[oSet (2, cOf L, jOf L, 0)]{fullShare} fo :=
  pts_out4 d L 0 fo
theorem pts_out5_0 (fo : Buf (Elt F) (oLoc d)) :
    (mine d (cV L) (jV L) (outAt5 L 0#32 (k0_off5_inb L 0)) fo : sProp 𝕄) = oLoc d ↦[oSet (3, cOf L, jOf L, 0)]{fullShare} fo :=
  pts_out5 d L 0 fo
theorem pts_out2_1 (fo : Buf (Elt F) (oLoc d)) :
    (mine d (cV L) (jV L) (outAt2 L 16#32 (k0_off2_inb L 1)) fo : sProp 𝕄) = oLoc d ↦[oSet (0, cOf L, jOf L, 1)]{fullShare} fo :=
  pts_out2 d L 1 fo
theorem pts_out3_1 (fo : Buf (Elt F) (oLoc d)) :
    (mine d (cV L) (jV L) (outAt3 L 16#32 (k0_off3_inb L 1)) fo : sProp 𝕄) = oLoc d ↦[oSet (1, cOf L, jOf L, 1)]{fullShare} fo :=
  pts_out3 d L 1 fo
theorem pts_out4_1 (fo : Buf (Elt F) (oLoc d)) :
    (mine d (cV L) (jV L) (outAt4 L 16#32 (k0_off4_inb L 1)) fo : sProp 𝕄) = oLoc d ↦[oSet (2, cOf L, jOf L, 1)]{fullShare} fo :=
  pts_out4 d L 1 fo
theorem pts_out5_1 (fo : Buf (Elt F) (oLoc d)) :
    (mine d (cV L) (jV L) (outAt5 L 16#32 (k0_off5_inb L 1)) fo : sProp 𝕄) = oLoc d ↦[oSet (3, cOf L, jOf L, 1)]{fullShare} fo :=
  pts_out5 d L 1 fo
theorem pts_out2_2 (fo : Buf (Elt F) (oLoc d)) :
    (mine d (cV L) (jV L) (outAt2 L 32#32 (k0_off2_inb L 2)) fo : sProp 𝕄) = oLoc d ↦[oSet (0, cOf L, jOf L, 2)]{fullShare} fo :=
  pts_out2 d L 2 fo
theorem pts_out3_2 (fo : Buf (Elt F) (oLoc d)) :
    (mine d (cV L) (jV L) (outAt3 L 32#32 (k0_off3_inb L 2)) fo : sProp 𝕄) = oLoc d ↦[oSet (1, cOf L, jOf L, 2)]{fullShare} fo :=
  pts_out3 d L 2 fo
theorem pts_out4_2 (fo : Buf (Elt F) (oLoc d)) :
    (mine d (cV L) (jV L) (outAt4 L 32#32 (k0_off4_inb L 2)) fo : sProp 𝕄) = oLoc d ↦[oSet (2, cOf L, jOf L, 2)]{fullShare} fo :=
  pts_out4 d L 2 fo
theorem pts_out5_2 (fo : Buf (Elt F) (oLoc d)) :
    (mine d (cV L) (jV L) (outAt5 L 32#32 (k0_off5_inb L 2)) fo : sProp 𝕄) = oLoc d ↦[oSet (3, cOf L, jOf L, 2)]{fullShare} fo :=
  pts_out5 d L 2 fo
theorem pts_out2_3 (fo : Buf (Elt F) (oLoc d)) :
    (mine d (cV L) (jV L) (outAt2 L 48#32 (k0_off2_inb L 3)) fo : sProp 𝕄) = oLoc d ↦[oSet (0, cOf L, jOf L, 3)]{fullShare} fo :=
  pts_out2 d L 3 fo
theorem pts_out3_3 (fo : Buf (Elt F) (oLoc d)) :
    (mine d (cV L) (jV L) (outAt3 L 48#32 (k0_off3_inb L 3)) fo : sProp 𝕄) = oLoc d ↦[oSet (1, cOf L, jOf L, 3)]{fullShare} fo :=
  pts_out3 d L 3 fo
theorem pts_out4_3 (fo : Buf (Elt F) (oLoc d)) :
    (mine d (cV L) (jV L) (outAt4 L 48#32 (k0_off4_inb L 3)) fo : sProp 𝕄) = oLoc d ↦[oSet (2, cOf L, jOf L, 3)]{fullShare} fo :=
  pts_out4 d L 3 fo
theorem pts_out5_3 (fo : Buf (Elt F) (oLoc d)) :
    (mine d (cV L) (jV L) (outAt5 L 48#32 (k0_off5_inb L 3)) fo : sProp 𝕄) = oLoc d ↦[oSet (3, cOf L, jOf L, 3)]{fullShare} fo :=
  pts_out5 d L 3 fo

/-- What a copy out carries: the slot read back after the copy in filled it whole is the table chunk that copy read. -/
theorem payload_eq {slot : Memref sig .scVector .vmem S16x2048 .f32} (g : slot.view.ty.Contents (Elt F)) (X : S16x2048.Idx → Elt F .f32)
    (Ls : List (View.Piece (Elt F) S16x2048 .f32)) :
    ReadAs.same.apply (slot.view.read (Elt F) (slot.view.writes (Elt F) g (⟨Rect.whole S16x2048, ReadAs.same.apply X⟩ :: Ls))) = X := by
  rw [ReadAs.apply_same, read_writes_whole_cons, ReadAs.apply_same]

theorem pts_landed2_0 (ft : Buf (Elt F) (tLoc d)) (fo : Buf (Elt F) (oLoc d)) :
    (mine d (cV L) (jV L) (outAt2 L 0#32 (k0_off2_inb L 0))
        ((outAt2 L 0#32 (k0_off2_inb L 0)).view.writes (Elt F) fo
          [⟨Rect.whole S16x2048, (tblAt L 0#32 (k0_off1_inb L 0)).view.read (Elt F) ft⟩]) : sProp 𝕄)
      = oLoc d ↦[oSet (0, cOf L, jOf L, 0)]{fullShare} Spec.repeated ft :=
  pts_landed2 d L 0 ft fo
theorem pts_landed3_0 (ft : Buf (Elt F) (tLoc d)) (fo : Buf (Elt F) (oLoc d)) :
    (mine d (cV L) (jV L) (outAt3 L 0#32 (k0_off3_inb L 0))
        ((outAt3 L 0#32 (k0_off3_inb L 0)).view.writes (Elt F) fo
          [⟨Rect.whole S16x2048, (tblAt L 0#32 (k0_off1_inb L 0)).view.read (Elt F) ft⟩]) : sProp 𝕄)
      = oLoc d ↦[oSet (1, cOf L, jOf L, 0)]{fullShare} Spec.repeated ft :=
  pts_landed3 d L 0 ft fo
theorem pts_landed4_0 (ft : Buf (Elt F) (tLoc d)) (fo : Buf (Elt F) (oLoc d)) :
    (mine d (cV L) (jV L) (outAt4 L 0#32 (k0_off4_inb L 0))
        ((outAt4 L 0#32 (k0_off4_inb L 0)).view.writes (Elt F) fo
          [⟨Rect.whole S16x2048, (tblAt L 0#32 (k0_off1_inb L 0)).view.read (Elt F) ft⟩]) : sProp 𝕄)
      = oLoc d ↦[oSet (2, cOf L, jOf L, 0)]{fullShare} Spec.repeated ft :=
  pts_landed4 d L 0 ft fo
theorem pts_landed5_0 (ft : Buf (Elt F) (tLoc d)) (fo : Buf (Elt F) (oLoc d)) :
    (mine d (cV L) (jV L) (outAt5 L 0#32 (k0_off5_inb L 0))
        ((outAt5 L 0#32 (k0_off5_inb L 0)).view.writes (Elt F) fo
          [⟨Rect.whole S16x2048, (tblAt L 0#32 (k0_off1_inb L 0)).view.read (Elt F) ft⟩]) : sProp 𝕄)
      = oLoc d ↦[oSet (3, cOf L, jOf L, 0)]{fullShare} Spec.repeated ft :=
  pts_landed5 d L 0 ft fo
theorem pts_landed2_1 (ft : Buf (Elt F) (tLoc d)) (fo : Buf (Elt F) (oLoc d)) :
    (mine d (cV L) (jV L) (outAt2 L 16#32 (k0_off2_inb L 1))
        ((outAt2 L 16#32 (k0_off2_inb L 1)).view.writes (Elt F) fo
          [⟨Rect.whole S16x2048, (tblAt L 16#32 (k0_off1_inb L 1)).view.read (Elt F) ft⟩]) : sProp 𝕄)
      = oLoc d ↦[oSet (0, cOf L, jOf L, 1)]{fullShare} Spec.repeated ft :=
  pts_landed2 d L 1 ft fo
theorem pts_landed3_1 (ft : Buf (Elt F) (tLoc d)) (fo : Buf (Elt F) (oLoc d)) :
    (mine d (cV L) (jV L) (outAt3 L 16#32 (k0_off3_inb L 1))
        ((outAt3 L 16#32 (k0_off3_inb L 1)).view.writes (Elt F) fo
          [⟨Rect.whole S16x2048, (tblAt L 16#32 (k0_off1_inb L 1)).view.read (Elt F) ft⟩]) : sProp 𝕄)
      = oLoc d ↦[oSet (1, cOf L, jOf L, 1)]{fullShare} Spec.repeated ft :=
  pts_landed3 d L 1 ft fo
theorem pts_landed4_1 (ft : Buf (Elt F) (tLoc d)) (fo : Buf (Elt F) (oLoc d)) :
    (mine d (cV L) (jV L) (outAt4 L 16#32 (k0_off4_inb L 1))
        ((outAt4 L 16#32 (k0_off4_inb L 1)).view.writes (Elt F) fo
          [⟨Rect.whole S16x2048, (tblAt L 16#32 (k0_off1_inb L 1)).view.read (Elt F) ft⟩]) : sProp 𝕄)
      = oLoc d ↦[oSet (2, cOf L, jOf L, 1)]{fullShare} Spec.repeated ft :=
  pts_landed4 d L 1 ft fo
theorem pts_landed5_1 (ft : Buf (Elt F) (tLoc d)) (fo : Buf (Elt F) (oLoc d)) :
    (mine d (cV L) (jV L) (outAt5 L 16#32 (k0_off5_inb L 1))
        ((outAt5 L 16#32 (k0_off5_inb L 1)).view.writes (Elt F) fo
          [⟨Rect.whole S16x2048, (tblAt L 16#32 (k0_off1_inb L 1)).view.read (Elt F) ft⟩]) : sProp 𝕄)
      = oLoc d ↦[oSet (3, cOf L, jOf L, 1)]{fullShare} Spec.repeated ft :=
  pts_landed5 d L 1 ft fo
theorem pts_landed2_2 (ft : Buf (Elt F) (tLoc d)) (fo : Buf (Elt F) (oLoc d)) :
    (mine d (cV L) (jV L) (outAt2 L 32#32 (k0_off2_inb L 2))
        ((outAt2 L 32#32 (k0_off2_inb L 2)).view.writes (Elt F) fo
          [⟨Rect.whole S16x2048, (tblAt L 32#32 (k0_off1_inb L 2)).view.read (Elt F) ft⟩]) : sProp 𝕄)
      = oLoc d ↦[oSet (0, cOf L, jOf L, 2)]{fullShare} Spec.repeated ft :=
  pts_landed2 d L 2 ft fo
theorem pts_landed3_2 (ft : Buf (Elt F) (tLoc d)) (fo : Buf (Elt F) (oLoc d)) :
    (mine d (cV L) (jV L) (outAt3 L 32#32 (k0_off3_inb L 2))
        ((outAt3 L 32#32 (k0_off3_inb L 2)).view.writes (Elt F) fo
          [⟨Rect.whole S16x2048, (tblAt L 32#32 (k0_off1_inb L 2)).view.read (Elt F) ft⟩]) : sProp 𝕄)
      = oLoc d ↦[oSet (1, cOf L, jOf L, 2)]{fullShare} Spec.repeated ft :=
  pts_landed3 d L 2 ft fo
theorem pts_landed4_2 (ft : Buf (Elt F) (tLoc d)) (fo : Buf (Elt F) (oLoc d)) :
    (mine d (cV L) (jV L) (outAt4 L 32#32 (k0_off4_inb L 2))
        ((outAt4 L 32#32 (k0_off4_inb L 2)).view.writes (Elt F) fo
          [⟨Rect.whole S16x2048, (tblAt L 32#32 (k0_off1_inb L 2)).view.read (Elt F) ft⟩]) : sProp 𝕄)
      = oLoc d ↦[oSet (2, cOf L, jOf L, 2)]{fullShare} Spec.repeated ft :=
  pts_landed4 d L 2 ft fo
theorem pts_landed5_2 (ft : Buf (Elt F) (tLoc d)) (fo : Buf (Elt F) (oLoc d)) :
    (mine d (cV L) (jV L) (outAt5 L 32#32 (k0_off5_inb L 2))
        ((outAt5 L 32#32 (k0_off5_inb L 2)).view.writes (Elt F) fo
          [⟨Rect.whole S16x2048, (tblAt L 32#32 (k0_off1_inb L 2)).view.read (Elt F) ft⟩]) : sProp 𝕄)
      = oLoc d ↦[oSet (3, cOf L, jOf L, 2)]{fullShare} Spec.repeated ft :=
  pts_landed5 d L 2 ft fo
theorem pts_landed2_3 (ft : Buf (Elt F) (tLoc d)) (fo : Buf (Elt F) (oLoc d)) :
    (mine d (cV L) (jV L) (outAt2 L 48#32 (k0_off2_inb L 3))
        ((outAt2 L 48#32 (k0_off2_inb L 3)).view.writes (Elt F) fo
          [⟨Rect.whole S16x2048, (tblAt L 48#32 (k0_off1_inb L 3)).view.read (Elt F) ft⟩]) : sProp 𝕄)
      = oLoc d ↦[oSet (0, cOf L, jOf L, 3)]{fullShare} Spec.repeated ft :=
  pts_landed2 d L 3 ft fo
theorem pts_landed3_3 (ft : Buf (Elt F) (tLoc d)) (fo : Buf (Elt F) (oLoc d)) :
    (mine d (cV L) (jV L) (outAt3 L 48#32 (k0_off3_inb L 3))
        ((outAt3 L 48#32 (k0_off3_inb L 3)).view.writes (Elt F) fo
          [⟨Rect.whole S16x2048, (tblAt L 48#32 (k0_off1_inb L 3)).view.read (Elt F) ft⟩]) : sProp 𝕄)
      = oLoc d ↦[oSet (1, cOf L, jOf L, 3)]{fullShare} Spec.repeated ft :=
  pts_landed3 d L 3 ft fo
theorem pts_landed4_3 (ft : Buf (Elt F) (tLoc d)) (fo : Buf (Elt F) (oLoc d)) :
    (mine d (cV L) (jV L) (outAt4 L 48#32 (k0_off4_inb L 3))
        ((outAt4 L 48#32 (k0_off4_inb L 3)).view.writes (Elt F) fo
          [⟨Rect.whole S16x2048, (tblAt L 48#32 (k0_off1_inb L 3)).view.read (Elt F) ft⟩]) : sProp 𝕄)
      = oLoc d ↦[oSet (2, cOf L, jOf L, 3)]{fullShare} Spec.repeated ft :=
  pts_landed4 d L 3 ft fo
theorem pts_landed5_3 (ft : Buf (Elt F) (tLoc d)) (fo : Buf (Elt F) (oLoc d)) :
    (mine d (cV L) (jV L) (outAt5 L 48#32 (k0_off5_inb L 3))
        ((outAt5 L 48#32 (k0_off5_inb L 3)).view.writes (Elt F) fo
          [⟨Rect.whole S16x2048, (tblAt L 48#32 (k0_off1_inb L 3)).view.read (Elt F) ft⟩]) : sProp 𝕄)
      = oLoc d ↦[oSet (3, cOf L, jOf L, 3)]{fullShare} Spec.repeated ft :=
  pts_landed5 d L 3 ft fo

omit m in
/-- A piece written with a payload equal to another is the piece written with that other. -/
theorem landed_of_eq {out : Memref sig .scVector .hbm S16x2048 .f32} (d : Dev nD) (c : Fin τ.nSC) (j : Fin τ.nSub)
    (fo : Buf (Elt F) (out.view.loc (V d c j))) (X Y : S16x2048.Idx → Elt F .f32) (R : sProp 𝕄) (e : X = Y)
    (h : (mine d c j out (out.view.writes (Elt F) fo [⟨Rect.whole S16x2048, Y⟩]) : sProp 𝕄) = R) :
    (mine d c j out (out.view.writes (Elt F) fo [⟨Rect.whole S16x2048, X⟩]) : sProp 𝕄) = R := by
  subst e; exact h

/-! ### The subcore's own semaphores and scratch -/

omit m in
theorem ownSems0_V :
    (ownSems0 (thr d L) : sProp 𝕄)
      = iprop(semVal (thr d L, SemLoc.dma semIn0) 0 ∗ semVal (thr d L, SemLoc.dma semIn1) 0
          ∗ semVal (thr d L, SemLoc.dma semOut0) 0 ∗ semVal (thr d L, SemLoc.dma semOut1) 0
          ∗ bigSep (((((ownCells (thr d L)).erase (thr d L, SemLoc.dma semIn0)).erase (thr d L, SemLoc.dma semIn1)).erase (thr d L, SemLoc.dma semOut0)).erase
              (thr d L, SemLoc.dma semOut1)) fun g => semVal g 0) := by
  unfold SparseCore.Cfg.ownSems0
  have hne : ∀ {a b : DmaSem sig}, a ≠ b → ((thr d L, SemLoc.dma a) : GSem nD τ sig) ≠ (thr d L, SemLoc.dma b) :=
    fun h e => h (SemLoc.dma.inj (Prod.mk.inj e).2)
  rw [SparseCore.bigSep_erase' ((mem_ownCells (g := (thr d L, SemLoc.dma semIn0))).mpr ⟨rfl, by
      show (SemLoc.dma semIn0 : SemLoc sig).isScoped .scVector = true; decide⟩),
    SparseCore.bigSep_erase' (Finset.mem_erase.mpr ⟨hne (by decide), (mem_ownCells (g := (thr d L, SemLoc.dma semIn1))).mpr ⟨rfl, by
      show (SemLoc.dma semIn1 : SemLoc sig).isScoped .scVector = true; decide⟩⟩),
    SparseCore.bigSep_erase' (Finset.mem_erase.mpr ⟨hne (by decide), Finset.mem_erase.mpr ⟨hne (by decide),
      (mem_ownCells (g := (thr d L, SemLoc.dma semOut0))).mpr ⟨rfl, by show (SemLoc.dma semOut0 : SemLoc sig).isScoped .scVector = true; decide⟩⟩⟩),
    SparseCore.bigSep_erase' (Finset.mem_erase.mpr ⟨hne (by decide), Finset.mem_erase.mpr ⟨hne (by decide), Finset.mem_erase.mpr ⟨hne (by decide),
      (mem_ownCells (g := (thr d L, SemLoc.dma semOut1))).mpr ⟨rfl, by show (SemLoc.dma semOut1 : SemLoc sig).isScoped .scVector = true; decide⟩⟩⟩⟩)]

omit m in
theorem ownBufs_V :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit m in
/-- A wait recorded at the kernel's own index keeps the record within what the launch allows. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ### The task -/

theorem tile_body [FloatOps F] [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp ∗ goRes m d (cOf L) (jOf L)
        ∗ scopedBufs (thr d L) ∗ scopedSems0 (thr d L) ∗ owes (thr d L) O W)
      ⊢ wp frame (wpE (defs₀ (F := F)) 𝒱₀ (thr d L) none) Set.univ
          (cc0_sc_broadcast L tblW (Memref.isWhole_whole _) outW (Memref.isWhole_whole _) bufW (Memref.isWhole_whole _) cc0_scratch1 cc0_scratch2)
          fun _ => iprop(tdRes m d (cOf L) (jOf L) ∗ scopedBufs (thr d L) ∗ scopedSems0 (thr d L)
            ∗ ∃ W', ⌜∀ p ∈ W', p ∈ W ∨ p.2 = none⌝ ∗ owes (thr d L) O W') := by
  simp only [cc0_sc_broadcast_eq_skeleton]; unfold cc0_sc_broadcast_skel
  rw [(K (F := F)).scopedBufs_V hF d (cV L) (jV L), SparseCore.Cfg.scopedSems0_V (Val := Elt F) d (cV L) (jV L), ownSems0_V, ownBufs_V]
  unfold goRes tdRes
  simp only [bigSep_fin4]
  iintro ⟨#Hlv, -, ⟨⟨T0, T1, T2, T3⟩, ⟨A0, B0, C0, D0⟩, ⟨A1, B1, C1, D1⟩, ⟨A2, B2, C2, D2⟩, ⟨A3, B3, C3, D3⟩⟩, ⟨⟨%fs, Hs⟩, Hbufs⟩, ⟨Hi0, Hi1, Ho0, Ho1, Hsems⟩, HO⟩
  ihave Hmw := ((K (F := F)).mayWaits_none (thr := thr d L) hO) $$ Hlv
  ihave HT0 := (Entails.of_eq (pts_tbl_0 (F := F) d L _).symm) $$ T0
  ihave HT1 := (Entails.of_eq (pts_tbl_1 (F := F) d L _).symm) $$ T1
  ihave HT2 := (Entails.of_eq (pts_tbl_2 (F := F) d L _).symm) $$ T2
  ihave HT3 := (Entails.of_eq (pts_tbl_3 (F := F) d L _).symm) $$ T3
  ihave HA0 := (Entails.of_eq (pts_out2_0 (F := F) d L _).symm) $$ A0
  ihave HB0 := (Entails.of_eq (pts_out3_0 (F := F) d L _).symm) $$ B0
  ihave HC0 := (Entails.of_eq (pts_out4_0 (F := F) d L _).symm) $$ C0
  ihave HD0 := (Entails.of_eq (pts_out5_0 (F := F) d L _).symm) $$ D0
  ihave HA1 := (Entails.of_eq (pts_out2_1 (F := F) d L _).symm) $$ A1
  ihave HB1 := (Entails.of_eq (pts_out3_1 (F := F) d L _).symm) $$ B1
  ihave HC1 := (Entails.of_eq (pts_out4_1 (F := F) d L _).symm) $$ C1
  ihave HD1 := (Entails.of_eq (pts_out5_1 (F := F) d L _).symm) $$ D1
  ihave HA2 := (Entails.of_eq (pts_out2_2 (F := F) d L _).symm) $$ A2
  ihave HB2 := (Entails.of_eq (pts_out3_2 (F := F) d L _).symm) $$ B2
  ihave HC2 := (Entails.of_eq (pts_out4_2 (F := F) d L _).symm) $$ C2
  ihave HD2 := (Entails.of_eq (pts_out5_2 (F := F) d L _).symm) $$ D2
  ihave HA3 := (Entails.of_eq (pts_out2_3 (F := F) d L _).symm) $$ A3
  ihave HB3 := (Entails.of_eq (pts_out3_3 (F := F) d L _).symm) $$ B3
  ihave HC3 := (Entails.of_eq (pts_out4_3 (F := F) d L _).symm) $$ C3
  ihave HD3 := (Entails.of_eq (pts_out5_3 (F := F) d L _).symm) $$ D3
  ihave HS := (scratch_split (F := F) d (cV L) (jV L) fs) $$ Hs
  icases HS with ⟨HS0, HS1⟩
  have _p0 : Transfers.BatchOf (thr d L) (SemLoc.dma (sig := sig) semOut0) 4 (windows := true) := trivial
  have _p1 : Transfers.BatchOf (thr d L) (SemLoc.dma (sig := sig) semOut1) 4 (windows := true) := trivial
  sl_exec
  sl_step
  have e0 : tile_body.sl.dma2 m d L fs = (tblAt L 0#32 (k0_off1_inb L 0)).view.read (Elt F) (m (tLoc d)) := by
    unfold tile_body.sl.dma2 tile_body.sl.dma0; exact payload_eq _ _ _
  have e1 : tile_body.sl.dma6 m d L fs = (tblAt L 16#32 (k0_off1_inb L 1)).view.read (Elt F) (m (tLoc d)) := by
    unfold tile_body.sl.dma6 tile_body.sl.dma0_1; exact payload_eq _ _ _
  have e2 : tile_body.sl.dma11 m d L fs = (tblAt L 32#32 (k0_off1_inb L 2)).view.read (Elt F) (m (tLoc d)) := by
    unfold tile_body.sl.dma11 tile_body.sl.dma0_2; exact payload_eq _ _ _
  have e3 : tile_body.sl.dma16 m d L fs = (tblAt L 48#32 (k0_off1_inb L 3)).view.read (Elt F) (m (tLoc d)) := by
    unfold tile_body.sl.dma16 tile_body.sl.dma0_3; exact payload_eq _ _ _
  ihave T0 := (Entails.of_eq (pts_tbl_0 (F := F) d L _)) $$ HT0
  ihave T1 := (Entails.of_eq (pts_tbl_1 (F := F) d L _)) $$ HT1
  ihave T2 := (Entails.of_eq (pts_tbl_2 (F := F) d L _)) $$ HT2
  ihave T3 := (Entails.of_eq (pts_tbl_3 (F := F) d L _)) $$ HT3
  ihave A0 := (Entails.of_eq (landed_of_eq (F := F) d (cV L) (jV L) _ _ _ _ e0 (pts_landed2_0 (F := F) d L (m (tLoc d)) (m (oLoc d))))) $$ HA0
  ihave B0 := (Entails.of_eq (landed_of_eq (F := F) d (cV L) (jV L) _ _ _ _ e0 (pts_landed3_0 (F := F) d L (m (tLoc d)) (m (oLoc d))))) $$ HB0
  ihave C0 := (Entails.of_eq (landed_of_eq (F := F) d (cV L) (jV L) _ _ _ _ e0 (pts_landed4_0 (F := F) d L (m (tLoc d)) (m (oLoc d))))) $$ HC0
  ihave D0 := (Entails.of_eq (landed_of_eq (F := F) d (cV L) (jV L) _ _ _ _ e0 (pts_landed5_0 (F := F) d L (m (tLoc d)) (m (oLoc d))))) $$ HD0
  ihave A1 := (Entails.of_eq (landed_of_eq (F := F) d (cV L) (jV L) _ _ _ _ e1 (pts_landed2_1 (F := F) d L (m (tLoc d)) (m (oLoc d))))) $$ HA1
  ihave B1 := (Entails.of_eq (landed_of_eq (F := F) d (cV L) (jV L) _ _ _ _ e1 (pts_landed3_1 (F := F) d L (m (tLoc d)) (m (oLoc d))))) $$ HB1
  ihave C1 := (Entails.of_eq (landed_of_eq (F := F) d (cV L) (jV L) _ _ _ _ e1 (pts_landed4_1 (F := F) d L (m (tLoc d)) (m (oLoc d))))) $$ HC1
  ihave D1 := (Entails.of_eq (landed_of_eq (F := F) d (cV L) (jV L) _ _ _ _ e1 (pts_landed5_1 (F := F) d L (m (tLoc d)) (m (oLoc d))))) $$ HD1
  ihave A2 := (Entails.of_eq (landed_of_eq (F := F) d (cV L) (jV L) _ _ _ _ e2 (pts_landed2_2 (F := F) d L (m (tLoc d)) (m (oLoc d))))) $$ HA2
  ihave B2 := (Entails.of_eq (landed_of_eq (F := F) d (cV L) (jV L) _ _ _ _ e2 (pts_landed3_2 (F := F) d L (m (tLoc d)) (m (oLoc d))))) $$ HB2
  ihave C2 := (Entails.of_eq (landed_of_eq (F := F) d (cV L) (jV L) _ _ _ _ e2 (pts_landed4_2 (F := F) d L (m (tLoc d)) (m (oLoc d))))) $$ HC2
  ihave D2 := (Entails.of_eq (landed_of_eq (F := F) d (cV L) (jV L) _ _ _ _ e2 (pts_landed5_2 (F := F) d L (m (tLoc d)) (m (oLoc d))))) $$ HD2
  ihave A3 := (Entails.of_eq (landed_of_eq (F := F) d (cV L) (jV L) _ _ _ _ e3 (pts_landed2_3 (F := F) d L (m (tLoc d)) (m (oLoc d))))) $$ HA3
  ihave B3 := (Entails.of_eq (landed_of_eq (F := F) d (cV L) (jV L) _ _ _ _ e3 (pts_landed3_3 (F := F) d L (m (tLoc d)) (m (oLoc d))))) $$ HB3
  ihave C3 := (Entails.of_eq (landed_of_eq (F := F) d (cV L) (jV L) _ _ _ _ e3 (pts_landed4_3 (F := F) d L (m (tLoc d)) (m (oLoc d))))) $$ HC3
  ihave D3 := (Entails.of_eq (landed_of_eq (F := F) d (cV L) (jV L) _ _ _ _ e3 (pts_landed5_3 (F := F) d L (m (tLoc d)) (m (oLoc d))))) $$ HD3
  ihave Hs := (scratch_join (F := F) d (cV L) (jV L) _ _) $$ [HS0 HS1]
  · isplitl [HS0] <;> iassumption
  isplitl [T0 T1 T2 T3 A0 B0 C0 D0 A1 B1 C1 D1 A2 B2 C2 D2 A3 B3 C3 D3]
  · isplitl [T0 T1 T2 T3]
    · isplitl [T0]; · iexact T0
      isplitl [T1]; · iexact T1
      isplitl [T2]; · iexact T2
      iexact T3
    isplitl [A0 B0 C0 D0]
    · isplitl [A0]; · iexact A0
      isplitl [B0]; · iexact B0
      isplitl [C0]; · iexact C0
      iexact D0
    isplitl [A1 B1 C1 D1]
    · isplitl [A1]; · iexact A1
      isplitl [B1]; · iexact B1
      isplitl [C1]; · iexact C1
      iexact D1
    isplitl [A2 B2 C2 D2]
    · isplitl [A2]; · iexact A2
      isplitl [B2]; · iexact B2
      isplitl [C2]; · iexact C2
      iexact D2
    isplitl [A3]; · iexact A3
    isplitl [B3]; · iexact B3
    isplitl [C3]; · iexact C3
    iexact D3
  isplitl [Hs Hbufs]
  · isplitl [Hs]; · iexact Hs
    iexact Hbufs
  isplitl [Hi0 Hi1 Ho0 Ho1 Hsems]
  · isplitl [Hi0]; · iexact Hi0
    isplitl [Hi1]; · iexact Hi1
    isplitl [Ho0]; · iexact Ho0
    isplitl [Ho1]; · iexact Ho1
    iexact Hsems
  iexists _; isplitr
  swap
  · iexact HO
  · ipureintro
    iterate 20 refine waits_insert _ ?_
    exact fun p hp => .inl hp

end Tile

end Cert.Proof.KI

end
-- ==== Proof.LaunchIdeal.lean ====
/-
  The whole kernel program: the TensorCore starts both SparseCores, each deals its sixteen vector subcores their chunks,
  the subcores run their tasks side by side, and the pieces come back. The table is dealt chunk by chunk — 2 cores × 16
  subcores × 4 chunks of 16 rows cover its 2048 rows once — and so is the result, 4 batch planes per chunk; every task
  returns its result pieces holding the table repeated, so the result array ends at out (b, n, d) = table (n, d) with
  both arguments unchanged.
-/
import proofs.«207500_g41051297415787_cont_8to1_b_1522_22_alg».proof.Proof.SetupIdeal
import proofs.«207500_g41051297415787_cont_8to1_b_1522_22_alg».proof.Proof.TileIdeal

noncomputable section

namespace Cert.Proof.KI

open Cert.KernelIdeal Cert.KernelIdeal.Gen
open Cert.Proof.Chunks
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The one call hands core c the chunks of its sixteen subcores, subcore j of it its own; they come back with the
    result pieces filled. The kernel's own protocol (local copies and their waits) asks nothing of the launch. -/
def P : (K (F := F)).Pay (nD := nD) (Val := Elt F) (Name := ℕ) (U := UU) where
  st := fun q d c => match q with | 0 => bigSep Finset.univ fun j : Fin 16 => goRes m d (Fin.cast nCore_zero c) j
  dn := fun q d c => match q with | 0 => bigSep Finset.univ fun j : Fin 16 => tdRes m d (Fin.cast nCore_zero c) j
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance goRes_storable (d : Dev nD) (c : Fin 2) (j : Fin 16) : BI.Storable (upEmb : UEmb _ 𝕄) (goRes m d c j) := by
  unfold goRes; infer_instance
instance tdRes_storable (d : Dev nD) (c : Fin 2) (j : Fin 16) : BI.Storable (upEmb : UEmb _ 𝕄) (tdRes m d c j) := by
  unfold tdRes; infer_instance

instance P_storable : (P (F := F) m).IsStorable where
  st q d c := match q with
    | 0 => (inferInstance : BI.Storable (upEmb : UEmb _ 𝕄) (bigSep Finset.univ fun j : Fin 16 => goRes m d (Fin.cast nCore_zero c) j))
  dn q d c := match q with
    | 0 => (inferInstance : BI.Storable (upEmb : UEmb _ 𝕄) (bigSep Finset.univ fun j : Fin 16 => tdRes m d (Fin.cast nCore_zero c) j))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_sc_broadcast (coordsV c s)
          tblW (Memref.isWhole_whole _) outW (Memref.isWhole_whole _) bufW (Memref.isWhole_whole _) cc0_scratch1 cc0_scratch2) ⟨⟩ c s := rfl

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] [∀ e, Nonempty (Elt F e)] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit m in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun j : Fin 16 => goRes m d (Fin.cast nCore_zero c) j) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun j : Fin 16 => tdRes m d (Fin.cast nCore_zero c) j))
  rw [bigSep_tasks (F := F) (fun j => goRes m d (Fin.cast nCore_zero c) j), bigSep_tasks (F := F) (fun j => tdRes m d (Fin.cast nCore_zero c) j)]
  iintro H; imodintro
  isplitl [H]; · iexact H
  iintro H; iexact H

/-! ## The launch element: the handshakes' rounds; nothing of the kernel's own -/

def u₀ : UU := (initOf (K (F := F)).hsCells (K (F := F)).hsToks, 1)

omit m in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays as their chunks -/

omit m in
/-- An array held whole is held piece by piece, for pairwise disjoint pieces that cover it. -/
theorem pointsTo_pieces {T : Type} [Fintype T] [DecidableEq T] (ℓ : Loc nD τ sig) (q : PosShare TreeShare) (f : Buf (Elt F) ℓ) (Ks : T → Finset (Idx ℓ))
    (hd : ∀ t ∈ (Finset.univ : Finset T), ∀ t' ∈ (Finset.univ : Finset T), t ≠ t' → Disjoint (Ks t) (Ks t')) (hc : ∀ i, ∃ t, i ∈ Ks t) :
    (ℓ ↦{q} f : sProp 𝕄) = bigSep Finset.univ fun t => ℓ ↦[Ks t]{q} f := by
  rw [← pointsTo_biUnion Finset.univ Ks hd]
  congr 1
  exact (Finset.eq_univ_iff_forall.mpr fun i => Finset.mem_biUnion.mpr (let ⟨t, ht⟩ := hc i; ⟨t, Finset.mem_univ _, ht⟩)).symm

omit m in
/-- The table whole is its 2 × 16 × 4 chunks. -/
theorem tbl_chunks (d : Dev nD) (f : Buf (Elt F) (tLoc d)) :
    (tLoc d ↦{fullShare} f : sProp 𝕄)
      = bigSep Finset.univ fun c : Fin 2 => bigSep Finset.univ fun j : Fin 16 => bigSep Finset.univ fun r : Fin 4 => tLoc d ↦[tSet (c, j, r)]{fullShare} f := by
  refine (pointsTo_pieces (tLoc d) fullShare f tSet tSet_disjoint tSet_covers).trans ?_
  rw [bigSep_univ_prod]
  refine bigSep_congr fun c _ => ?_
  rw [bigSep_univ_prod]

omit m in
/-- The result whole is its 2 × 16 × 4 × 4 pieces. -/
theorem out_chunks (d : Dev nD) (f : Buf (Elt F) (oLoc d)) :
    (oLoc d ↦{fullShare} f : sProp 𝕄)
      = bigSep Finset.univ fun c : Fin 2 => bigSep Finset.univ fun j : Fin 16 => bigSep Finset.univ fun r : Fin 4 => bigSep Finset.univ fun b : Fin 4 =>
          oLoc d ↦[oSet (b, c, j, r)]{fullShare} f := by
  refine (pointsTo_pieces (oLoc d) fullShare f oSetN oSetN_disjoint oSetN_covers).trans ?_
  rw [bigSep_univ_prod]
  refine bigSep_congr fun c _ => ?_
  rw [bigSep_univ_prod]
  refine bigSep_congr fun j _ => ?_
  rw [bigSep_univ_prod]
  rfl

/-- What the call takes for both cores: the table and the result whole. -/
theorem st0_eq (d : Dev nD) :
    (bigSep Finset.univ fun c : Fin ((K (F := F)).nCore 0) => (P m).st 0 d c) = iprop((tLoc d ↦{fullShare} m (tLoc d)) ∗ oLoc d ↦{fullShare} m (oLoc d)) := by
  show (bigSep Finset.univ fun c : Fin ((K (F := F)).nCore 0) => bigSep Finset.univ fun j : Fin 16 => goRes m d (Fin.cast nCore_zero c) j) = _
  rw [bigSep_cores (F := F) (fun c => bigSep Finset.univ fun j : Fin 16 => goRes m d c j), tbl_chunks, out_chunks]
  unfold goRes
  rw [← bigSep_sep']
  refine bigSep_congr fun c _ => ?_
  rw [← bigSep_sep']

/-- What it hands back: the table whole, and the result whole at the table repeated. -/
theorem dn0_eq (d : Dev nD) :
    (bigSep Finset.univ fun c : Fin ((K (F := F)).nCore 0) => (P m).dn 0 d c)
      = iprop((tLoc d ↦{fullShare} m (tLoc d)) ∗ oLoc d ↦{fullShare} Spec.repeated (m (tLoc d))) := by
  show (bigSep Finset.univ fun c : Fin ((K (F := F)).nCore 0) => bigSep Finset.univ fun j : Fin 16 => tdRes m d (Fin.cast nCore_zero c) j) = _
  rw [bigSep_cores (F := F) (fun c => bigSep Finset.univ fun j : Fin 16 => tdRes m d c j), tbl_chunks, out_chunks]
  unfold tdRes
  rw [← bigSep_sep']
  refine bigSep_congr fun c _ => ?_
  rw [← bigSep_sep']

/-! ## @main on the TensorCore -/

omit m in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves the claim: the index array and the table as launched, the result at the table repeated. -/
abbrev FIN (d : Dev nD) : sProp 𝕄 :=
  iprop((xLoc d ↦{fullShare} m (xLoc d)) ∗ (tLoc d ↦{fullShare} m (tLoc d)) ∗ oLoc d ↦{fullShare} Spec.repeated (m (tLoc d)))

/-- @main on device d's TensorCore: the one call, from the table and the result whole. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Ht Ho Hx]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  imodintro
  isplitl [Hst]; · iexact Hst
  isplitl [Hx]; · iexact Hx
  isplitl [Ht]; · iexact Ht
  iexact Ho

def fq (d : Dev nD) (s' : Phys nD τ sig (Elt F)) : Prop :=
  s'.mem.mem (oLoc d) = Spec.repeated (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Spec.repeated (m (tLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Spec.repeated (m (tLoc c)) ∧ r.2.mem (xLoc c) = m (xLoc c) ∧ r.2.mem (tLoc c) = m (tLoc c)

/-- Every weakly fair execution of the device's threads terminates, nothing faulting, with the result array at the
    table repeated and both arguments as launched. -/
theorem run_main [FloatOps F] [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefRun.lean ====
/-
  The reference program's run. Its @main is a straight line of twenty-six host operations once the two module-local
  functions are unfolded at their call sites: the iota, the take function's twenty-three operations (with the one
  select of the where function among them) written over the buffers the call names, and the two broadcasts that add
  the leading axis and repeat the table along it. Every weakly fair execution therefore terminates, and every buffer
  ends at the fold of the operations' results over the launch contents; read at the result buffer this fold is one
  composed term of the table, and at the two argument buffers it is what was there.
-/
import proofs.«207500_g41051297415787_cont_8to1_b_1522_22_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- @main's twenty-six operations in order, the calls unfolded: the iota; the take function's operations over the
    buffers of its call record (the where function's select over the nested record); the two broadcasts. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S2048x2048_S2048x1_S2048x2048_1_0_n_n_0_1_12048 x i),
    TRef.unary main_call0.v12 main_call0.v14 (broadcastInDim S2048x2048 ![0] bcast_S2048_S2048x2048_0),
    TRef.nullary main_call0.cst (constant S_ .f32 0x7FC00000#32),
    TRef.unary main_call0.cst main_call0.v15 (broadcastInDim S2048x2048 ![] bcast_S_S2048x2048),
    TRef.ternary main_call0.v14 main_call0.v13 main_call0.v15 main_call0.v16 select,
    unary main_v1 main_v2 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v2 main_v3 (broadcastInDim S4x2048x2048 ![0, 1, 2] bcast_S1x2048x2048_S4x2048x2048_0_1_2 : (⟨S1x2048x2048, .f32⟩ : BufTy).Contents (Elt F) → (⟨S4x2048x2048, .f32⟩ : BufTy).Contents (Elt F)) ]

-- twenty-six binds re-associated under the unfolded calls
set_option maxRecDepth 2048 in
/-- @main is that straight line: the two functions' definitions unfolded at their calls and the records at their
    fields, both sides are one chain of operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub ..⟩

/-- At the compiled mesh, for any float values, from any memory with zero counters: every weakly fair execution of
    @main terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one composed term of the table -/

/-- The start indices the gather reads, one per row: the iota, plus 2048 where negative, as a column. -/
def rowIdx : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32)))
      (iotaInDim S2048 32 0))

/-- Per row, whether its start index lies in [0, 2047]: the two comparisons, their conjunction, reduced by
    conjunction over the unit axis. -/
def rowOk : IVec S2048 1 :=
  Host.reduce IntOp.andi
    (andi (cmpi .sge rowIdx (broadcastInDim S2048x1 ![] bcast_S_S2048x1 (constantI S_ 32 0#32)))
      (cmpi .sle rowIdx (broadcastInDim S2048x1 ![0, 1] bcast_S1x1_S2048x1_0_1
        (broadcastInDim S1x1 ![1] bcast_S1_S1x1_1 (constantI S1 32 2047#32)))))
    (constantI S_ 1 1#1) reducesTo_S2048x1_S2048_d1 h_S_

/-- The take function's result: the gathered rows where the start index is in range, the fill value elsewhere. -/
def taken (tbl : (⟨S2048x2048, .f32⟩ : BufTy).Contents (Elt F)) : (⟨S2048x2048, .f32⟩ : BufTy).Contents (Elt F) :=
  select (broadcastInDim S2048x2048 ![0] bcast_S2048_S2048x2048_0 rowOk)
    (Host.gather gather_S2048x2048_S2048x1_S2048x2048_1_0_n_n_0_1_12048 tbl rowIdx)
    (broadcastInDim S2048x2048 ![] bcast_S_S2048x2048 (constant S_ .f32 0x7FC00000#32))

/-- @main's result: the take function's result under a new leading unit axis, repeated four times along it. -/
def out (tbl : (⟨S2048x2048, .f32⟩ : BufTy).Contents (Elt F)) : (⟨S4x2048x2048, .f32⟩ : BufTy).Contents (Elt F) :=
  broadcastInDim S4x2048x2048 ![0, 1, 2] bcast_S1x2048x2048_S4x2048x2048_0_1_2
    (broadcastInDim S1x2048x2048 ![1, 2] bcast_S2048x2048_S1x2048x2048_1_2 (taken tbl))

attribute [local irreducible] Host.reduce Host.gather in
set_option maxRecDepth 8192 in
/-- The fold read at the result buffer is that term of the table's contents: the fold unrolled, each operation's
    result decided at the buffer read, the typed references' casts the identity at literal references. The reduction
    and the gather are kept folded meanwhile: the equation never looks inside them. -/
theorem out_eq (V : Valuation τ sig (Elt F)) :
    after ops V (main_v3 : DevRef τ sig) = out (V (main_arg1 : DevRef τ sig)) := by
  unfold out taken rowOk rowIdx
  after_results
  all_goals rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every weakly fair execution of @main terminates with the result buffer at the composed term of the table and
    the two argument buffers unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (out_eq _), (h c main_arg0).trans (arg0_eq _),
      (h c main_arg1).trans (arg1_eq _)⟩)
    (run_fold m ρ)

end Cert.Proof.Ref

end
-- ==== Proof.RefLemmas.lean ====
/-
  Three facts the reference's value rests on, none of them about the program's run.
  Words: for a row number r below 2048 the 32-bit word of r is, read as a signed integer, r itself; so it is not
  below zero, it is at least zero and at most 2047, and clamping it into [0, 2047] returns r.
  Reduction: a reduction by conjunction, started from the bit 1, over bits that are all 1 is 1.
  Gather: with the take function's dimension numbers (rows collapsed, one start index per row, whole rows as slices)
  the gathered array at (n, d) is the table at column d of the row named by row n's start index, read signed and
  clamped into [0, 2047].
-/
import proofs.«207500_g41051297415787_cont_8to1_b_1522_22_alg».proof.Proof.Gen.ReferenceIdeal
import Idealize.ShloMosaic.Lib.ValueIdx

namespace Cert.Proof.Ref

open Cert.ReferenceIdeal Cert.ReferenceIdeal.Gen Idealize.ShloMosaic Idealize.ShloMosaic.ValueIdx

/-! ## The word of a small row number -/

/-- The 32-bit word of r < 2048, read signed, is r. -/
theorem toInt_ofNat_small (r : Nat) (hr : r < 2048) : (BitVec.ofNat 32 r).toInt = (r : Int) := by
  rw [BitVec.toInt_eq_toNat_cond, BitVec.toNat_ofNat]
  have : r % 2 ^ 32 = r := Nat.mod_eq_of_lt (by omega)
  rw [this]
  split
  · rfl
  · omega

/-- It is not below zero … -/
theorem slt_zero (r : Nat) (hr : r < 2048) : IntOp.cmpi .slt (BitVec.ofNat 32 r) 0#32 = 0#1 := by
  show BitVec.ofBool ((BitVec.ofNat 32 r).slt 0#32) = 0#1
  rw [BitVec.slt, toInt_ofNat_small r hr]
  have : ¬ ((r : Int) < (0#32 : BitVec 32).toInt) := by
    have : (0#32 : BitVec 32).toInt = 0 := by decide
    rw [this]; omega
  rw [decide_eq_false this]; rfl

/-- … it is at least zero … -/
theorem sge_zero (r : Nat) (hr : r < 2048) : IntOp.cmpi .sge (BitVec.ofNat 32 r) 0#32 = 1#1 := by
  show BitVec.ofBool ((0#32 : BitVec 32).sle (BitVec.ofNat 32 r)) = 1#1
  rw [BitVec.sle, toInt_ofNat_small r hr]
  have : ((0#32 : BitVec 32).toInt ≤ (r : Int)) := by
    have : (0#32 : BitVec 32).toInt = 0 := by decide
    rw [this]; omega
  rw [decide_eq_true this]; rfl

/-- … and at most 2047. -/
theorem sle_max (r : Nat) (hr : r < 2048) : IntOp.cmpi .sle (BitVec.ofNat 32 r) 2047#32 = 1#1 := by
  show BitVec.ofBool ((BitVec.ofNat 32 r).sle 2047#32) = 1#1
  rw [BitVec.sle, toInt_ofNat_small r hr]
  have : ((r : Int) ≤ (2047#32 : BitVec 32).toInt) := by
    have : (2047#32 : BitVec 32).toInt = 2047 := by decide
    rw [this]; omega
  rw [decide_eq_true this]; rfl

/-- Clamped into [0, 2047] it is r. -/
theorem toNat_clamp (r : Nat) (hr : r < 2048) : min (BitVec.ofNat 32 r).toInt.toNat (2048 - 1) = r := by
  rw [toInt_ofNat_small r hr]
  simp only [Int.toNat_natCast]
  omega

/-! ## A conjunction of ones -/

/-- A reduction by conjunction from the bit 1 over an array of bits that are all 1 is 1 at every result index. -/
theorem reduce_andi_of_all_one {s t u : Shape} {axes : List (Fin s.rank)} (x : IVec s 1) (init : IVec u 1)
    (h : s.ReducesTo axes t) (hu : 0 < u.numel) (hx : ∀ i, x i = 1#1) (hinit : init (Shape.Idx.first hu) = 1#1)
    (j : t.Idx) : Host.reduce IntOp.andi x init h hu j = 1#1 := by
  unfold Host.reduce
  rw [hinit]
  generalize (List.filter _ _) = l
  induction l with
  | nil => rfl
  | cons a l ih =>
    rw [List.foldl_cons, hx, show IntOp.andi (1#1 : BitVec 1) 1#1 = 1#1 from by decide]
    exact ih

/-! ## The row gather read at an index -/

local notation "gd" => gather_S2048x2048_S2048x1_S2048x2048_1_0_n_n_0_1_12048

/-- The row gather read at (n, d): the table at the row the start index of row n names — read signed and clamped into
    [0, 2047] — and column d. On the row axis the operand index is the clamped start alone (the axis is collapsed and
    not a batching one); on the column axis it is the result's column (no start index, the one offset axis). -/
theorem gather_rows_apply {α : Type} {w : Nat} (x : S2048x2048.Idx → α) (idx : IVec S2048x1 w) (n d : Fin 2048) :
    Host.gather gd x idx (ix2 n d)
      = x (ix2 (⟨min (idx (ix2 n (0 : Fin 1))).toInt.toNat (2048 - 1), by omega⟩ : Fin 2048) d) := by
  unfold Host.gather
  refine congrArg x (funext fun a => Fin.ext ?_)
  show GatherDims.start gd (ix2 n d) idx a + GatherDims.batchCoord gd (ix2 n d) a + GatherDims.offCoord gd (ix2 n d) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin S2048x2048.rank) ∈ GatherDims.startIndexMap gd from List.mem_singleton.mpr rfl)]
    have hsi : GatherDims.siIdx gd (ix2 n d) ⟨List.idxOf (⟨0, h0⟩ : Fin S2048x2048.rank) (GatherDims.startIndexMap gd),
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, h1'⟩ =>
    have h1 : (⟨1, h1'⟩ : Fin S2048x2048.rank) ∉ GatherDims.startIndexMap gd :=
      fun h => absurd (congrArg Fin.val (List.mem_singleton.mp h)) Nat.one_ne_zero
    unfold GatherDims.start
    rw [dif_neg h1, Nat.zero_add]
    rfl

end Cert.Proof.Ref
-- ==== Proof.RefValue.lean ====
/-
  The reference's value. Its result array of extents 4 × 2048 × 2048 holds, at (b, n, d), the table at (n, d).
  The two outer broadcasts read the take function's result at (n, d), whatever b is. There the select reads the range
  bit of row n, and that bit is 1: row n's start index is the word of n itself (the iota is not negative, so the
  first select keeps it), which is at least 0 and at most 2047, and the conjunction over the unit axis of bits that
  are 1 is 1. So the select takes the gathered element, and the gather reads the table at the row its start index
  names, clamped into [0, 2047] — row n again — and column d. The fill value is never read.
-/
import proofs.«207500_g41051297415787_cont_8to1_b_1522_22_alg».proof.Proof.RefRun
import proofs.«207500_g41051297415787_cont_8to1_b_1522_22_alg».proof.Proof.RefLemmas
import proofs.«207500_g41051297415787_cont_8to1_b_1522_22_alg».proof.Proof.Spec
import Idealize.ShloMosaic.Lib.Pipeline.Value
import Idealize.ShloMosaic.Lib.ValueIdx

noncomputable section

namespace Cert.Proof.Ref

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- Row r's start index is the word of r: the column reads the selected vector at r, whose condition — the word of r
    below zero — is 0, so the select keeps the iota's element. -/
theorem rowIdx_apply (r : Fin 2048) (z : Fin 1) : rowIdx (ix2 r z) = BitVec.ofNat 32 r.val := by
  unfold rowIdx
  refine (broadcastInDim_apply _ _ _ (ix2 r z) (ix1 r) (fun a => ?_)).trans ?_
  · match a with
    | ⟨0, _⟩ => rfl
  · show Scalar.select (IntOp.cmpi .slt (BitVec.ofNat 32 r.val) 0#32) _ (BitVec.ofNat 32 r.val) = _
    rw [slt_zero _ r.isLt, select_zero]

/-- Every row's range bit is 1: both comparisons hold of the word of a row number, at every index of the column. -/
theorem rowOk_apply (j : S2048.Idx) : rowOk j = 1#1 := by
  unfold rowOk
  refine reduce_andi_of_all_one _ _ _ _ (fun i => ?_) rfl j
  obtain ⟨r, z, rfl⟩ : ∃ (r : Fin 2048) (z : Fin 1), i = ix2 r z := ⟨i 0, i 1, eq_ix2 i⟩
  show IntOp.andi (IntOp.cmpi .sge (rowIdx (ix2 r z)) 0#32) (IntOp.cmpi .sle (rowIdx (ix2 r z)) 2047#32) = 1#1
  rw [rowIdx_apply, sge_zero _ r.isLt, sle_max _ r.isLt]
  decide

/-- The take function's result at (n, d) is the table at (n, d). -/
theorem taken_apply (tbl : (⟨S2048x2048, .f32⟩ : BufTy).Contents (Elt F)) (n d : Fin 2048) :
    taken tbl (ix2 n d) = tbl (ix2 n d) := by
  unfold taken
  have hc : broadcastInDim S2048x2048 ![0] bcast_S2048_S2048x2048_0 rowOk (ix2 n d) = 1#1 :=
    (broadcastInDim_apply _ _ _ (ix2 n d) (ix1 n) (fun a => by
      match a with
      | ⟨0, _⟩ => rfl)).trans (rowOk_apply _)
  refine (select_apply _ _ _ (ix2 n d)).trans ?_
  refine (congrArg (fun c => Scalar.select c _ _) hc).trans ?_
  refine (select_one _ _).trans ?_
  refine (gather_rows_apply _ _ n d).trans ?_
  exact congrArg (fun a => tbl (ix2 a d)) (Fin.ext (by
    show min (rowIdx (ix2 n (0 : Fin 1))).toInt.toNat (2048 - 1) = n.val
    rw [rowIdx_apply]
    exact toNat_clamp n.val n.isLt))

/-- @main's result at (b, n, d) is the table at (n, d). -/
theorem out_apply (tbl : (⟨S2048x2048, .f32⟩ : BufTy).Contents (Elt F)) (b : Fin 4) (n d : Fin 2048) :
    out tbl (ix3 b n d) = tbl (ix2 n d) := by
  unfold out
  refine (broadcastInDim_apply _ _ _ (ix3 b n d) (ix3 (0 : Fin 1) n d) (fun a => ?_)).trans ?_
  · match a with
    | ⟨0, _⟩ => rfl
    | ⟨1, _⟩ => rfl
    | ⟨2, _⟩ => rfl
  refine (broadcastInDim_apply _ _ _ (ix3 (0 : Fin 1) n d) (ix2 n d) (fun a => ?_)).trans ?_
  · match a with
    | ⟨0, _⟩ => rfl
    | ⟨1, _⟩ => rfl
  exact taken_apply tbl n d

/-- The composed term is the table repeated along the leading axis. -/
theorem out_eq_repeated (tbl : (⟨S2048x2048, .f32⟩ : BufTy).Contents (Elt F)) :
    out tbl = Cert.Proof.Spec.repeated tbl := by
  funext i
  obtain ⟨b, n, d, rfl⟩ : ∃ (b : Fin 4) (n d : Fin 2048), i = ix3 b n d := ⟨i 0, i 1, i 2, eq_ix3 i⟩
  exact out_apply tbl b n d

/-- Every weakly fair execution of the reference terminates with its result the table repeated along the leading
    axis and its two arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v3) = Cert.Proof.Spec.repeated (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (out_eq_repeated _), (h c).2⟩) (run_term (F := Ideal) m ρ)

end Cert.Proof.Ref

end
-- ==== Proof.lean ====
/-
  The claim. Both programs compute one function of the table: the result of extents 4 × 2048 × 2048 holds the table of
  extents 2048 × 2048 once per batch entry, out (b, n, d) = table (n, d), and the index array is read by neither. The
  kernel does it by data movement alone — 32 vector subcores, each copying its 64 rows, 16 at a time, through a
  two-slot scratch into the four batch planes — so its run is a statement about which piece of which array each copy
  reads and writes; the reference gathers the rows at the indices 0 … 2047, which are all in range, and broadcasts. The
  ideal pass rewrote nothing, and no law of arithmetic is used: the precondition is never opened.
-/
import proofs.«207500_g41051297415787_cont_8to1_b_1522_22_alg».proof.Defs
import proofs.«207500_g41051297415787_cont_8to1_b_1522_22_alg».proof.Proof.Gen.Kernel
import proofs.«207500_g41051297415787_cont_8to1_b_1522_22_alg».proof.Proof.Gen.Kernel.Skeleton
import proofs.«207500_g41051297415787_cont_8to1_b_1522_22_alg».proof.Proof.Gen.KernelIdeal
import proofs.«207500_g41051297415787_cont_8to1_b_1522_22_alg».proof.Proof.Gen.KernelIdeal.Skeleton
import proofs.«207500_g41051297415787_cont_8to1_b_1522_22_alg».proof.Proof.Gen.ReferenceIdeal
import proofs.«207500_g41051297415787_cont_8to1_b_1522_22_alg».proof.Proof.Gen.Pre_input_domain
import Idealize.ShloMosaic.Adequacy
import Idealize.ShloMosaic.Init
import proofs.«207500_g41051297415787_cont_8to1_b_1522_22_alg».proof.Proof.LaunchBits
import proofs.«207500_g41051297415787_cont_8to1_b_1522_22_alg».proof.Proof.LaunchIdeal
import proofs.«207500_g41051297415787_cont_8to1_b_1522_22_alg».proof.Proof.RefValue

noncomputable section

namespace Cert.Proof

open Idealize.ShloMosaic Idealize.SL.Sem

/-- The word-level kernel runs to the end, faults nowhere, and leaves its arguments as launched. -/
theorem frame_kernel : Cert.frame_Kernel := fun m ρ _ =>
  (θ_run Cert.Kernel.defs _ _).mono (fun _ h c => ⟨(h c).2.1, (h c).2.2⟩) (KB.run_main (F := Bits) m ρ)

/-- So does the idealized kernel. -/
theorem frame_kernelIdeal : Cert.frame_KernelIdeal := fun m ρ _ =>
  (θ_run Cert.KernelIdeal.defs _ _).mono (fun _ h c => ⟨(h c).2.1, (h c).2.2⟩) (KI.run_main (F := Ideal) m ρ)

/-- And the reference. -/
theorem frame_referenceIdeal : Cert.frame_ReferenceIdeal := fun m ρ _ =>
  (θ_run Cert.ReferenceIdeal.defs _ _).mono (fun _ h c => (h c).2) (Cert.Proof.Ref.run m ρ)

/-- From memories that agree on the arguments both programs end with the table repeated in the result. -/
theorem algebraic : Cert.algebraic_KernelIdeal_ReferenceIdeal := by
  intro m ρ m' ρ' _ hagree
  refine ⟨fun c => Cert.Proof.Spec.repeated (m ((c.tc : Thread Cert.KernelIdeal.nD Cert.KernelIdeal.τ).loc Cert.KernelIdeal.main_arg1)), ?_, ?_⟩
  · exact (θ_run Cert.KernelIdeal.defs _ _).mono (fun _ h c => h c) (KI.run_main (F := Ideal) m ρ)
  · refine (θ_run Cert.ReferenceIdeal.defs _ _).mono (fun _ h c => ⟨(h c).1.trans ?_, (h c).2⟩) (Cert.Proof.Ref.run m' ρ')
    rw [(hagree c).2]

theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, trivial, algebraic⟩

end Cert.Proof

end
